-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v172) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x128x128 : Shape := ⟨4, ![16, 1, 128, 128]⟩
abbrev S16x2x128x128 : Shape := ⟨4, ![16, 2, 128, 128]⟩
abbrev S16x34x14880 : Shape := ⟨3, ![16, 34, 14880]⟩
abbrev S1x2x34x1 : Shape := ⟨4, ![1, 2, 34, 1]⟩
abbrev S34x11x14880 : Shape := ⟨3, ![34, 11, 14880]⟩
abbrev S14880 : Shape := ⟨1, ![14880]⟩
abbrev S34x14880 : Shape := ⟨2, ![34, 14880]⟩
abbrev S_ : Shape := ⟨0, ![]⟩

class Facts : Prop where
  bcast_S_S16x1x128x128 : S_.BroadcastsInDim S16x1x128x128 (![] : Fin 0 → Fin S16x1x128x128.rank)
  reducesTo_S16x1x128x128_S_d0_1_2_3 : S16x1x128x128.ReducesTo [0, 1, 2, 3] S_
  h_S_ : 0 < S_.numel
  bcast_S_S16x2x128x128 : S_.BroadcastsInDim S16x2x128x128 (![] : Fin 0 → Fin S16x2x128x128.rank)
  reducesTo_S16x2x128x128_S_d0_1_2_3 : S16x2x128x128.ReducesTo [0, 1, 2, 3] S_
  bcast_S_S16x34x14880 : S_.BroadcastsInDim S16x34x14880 (![] : Fin 0 → Fin S16x34x14880.rank)
  reducesTo_S16x34x14880_S_d0_1_2 : S16x34x14880.ReducesTo [0, 1, 2] S_
  bcast_S_S1x2x34x1 : S_.BroadcastsInDim S1x2x34x1 (![] : Fin 0 → Fin S1x2x34x1.rank)
  reducesTo_S1x2x34x1_S_d0_1_2_3 : S1x2x34x1.ReducesTo [0, 1, 2, 3] S_

variable [Facts]

def fn_part1 {F : FTy → Type} [FloatOps F] (main_arg4 : FVec F S16x34x14880 .f32) (main_arg5 : FVec F S1x2x34x1 .f32) (main_v13 : IVec S_ 1) (main_v16 : IVec S16x34x14880 1) : IVec S_ 1 :=
  let main_c_5 : IVec S_ 1 := constantI S_ 1 1#1
  let main_v17 : IVec S_ 1 := (fun x v => Host.reduce IntOp.andi x v reducesTo_S16x34x14880_S_d0_1_2 h_S_) main_v16 main_c_5
  let main_v18 : IVec S_ 1 := andi main_v13 main_v17
  let main_v19 : FVec F S16x34x14880 .f32 := Host.absf main_arg4
  let main_cst_6 : FVec F S_ .f32 := constant S_ .f32 0x7F800000#32
  let main_v20 : FVec F S16x34x14880 .f32 := broadcastInDim S16x34x14880 ![] bcast_S_S16x34x14880 main_cst_6
  let main_v21 : IVec S16x34x14880 1 := cmpf .olt main_v19 main_v20
  let main_c_7 : IVec S_ 1 := constantI S_ 1 1#1
  let main_v22 : IVec S_ 1 := (fun x v => Host.reduce IntOp.andi x v reducesTo_S16x34x14880_S_d0_1_2 h_S_) main_v21 main_c_7
  let main_v23 : IVec S_ 1 := andi main_v18 main_v22
  let main_v24 : FVec F S1x2x34x1 .f32 := Host.absf main_arg5
  let main_cst_8 : FVec F S_ .f32 := constant S_ .f32 0x7F800000#32
  let main_v25 : FVec F S1x2x34x1 .f32 := broadcastInDim S1x2x34x1 ![] bcast_S_S1x2x34x1 main_cst_8
  let main_v26 : IVec S1x2x34x1 1 := cmpf .olt main_v24 main_v25
  let main_c_9 : IVec S_ 1 := constantI S_ 1 1#1
  let main_v27 : IVec S_ 1 := (fun x v => Host.reduce IntOp.andi x v reducesTo_S1x2x34x1_S_d0_1_2_3 h_S_) main_v26 main_c_9
  let main_v28 : IVec S_ 1 := andi main_v23 main_v27
  main_v28

def fn {F : FTy → Type} [FloatOps F] (main_arg0 : FVec F S16x1x128x128 .f32) (main_arg1 : FVec F S16x2x128x128 .f32) (main_arg2 : FVec F S16x34x14880 .f32) (main_arg3 : FVec F S16x34x14880 .f32) (main_arg4 : FVec F S16x34x14880 .f32) (main_arg5 : FVec F S1x2x34x1 .f32) (main_arg6 : IVec S34x11x14880 32) (main_arg7 : IVec S14880 32) (main_arg8 : IVec S34x14880 32) : IVec S_ 1 :=
  let main_v0 : FVec F S16x1x128x128 .f32 := Host.absf main_arg0
  let main_cst : FVec F S_ .f32 := constant S_ .f32 0x7F800000#32
  let main_v1 : FVec F S16x1x128x128 .f32 := broadcastInDim S16x1x128x128 ![] bcast_S_S16x1x128x128 main_cst
  let main_v2 : IVec S16x1x128x128 1 := cmpf .olt main_v0 main_v1
  let main_c : IVec S_ 1 := constantI S_ 1 1#1
  let main_v3 : IVec S_ 1 := (fun x v => Host.reduce IntOp.andi x v reducesTo_S16x1x128x128_S_d0_1_2_3 h_S_) main_v2 main_c
  let main_v4 : FVec F S16x2x128x128 .f32 := Host.absf main_arg1
  let main_cst_0 : FVec F S_ .f32 := constant S_ .f32 0x7F800000#32
  let main_v5 : FVec F S16x2x128x128 .f32 := broadcastInDim S16x2x128x128 ![] bcast_S_S16x2x128x128 main_cst_0
  let main_v6 : IVec S16x2x128x128 1 := cmpf .olt main_v4 main_v5
  let main_c_1 : IVec S_ 1 := constantI S_ 1 1#1
  let main_v7 : IVec S_ 1 := (fun x v => Host.reduce IntOp.andi x v reducesTo_S16x2x128x128_S_d0_1_2_3 h_S_) main_v6 main_c_1
  let main_v8 : IVec S_ 1 := andi main_v3 main_v7
  let main_v9 : FVec F S16x34x14880 .f32 := Host.absf main_arg2
  let main_cst_2 : FVec F S_ .f32 := constant S_ .f32 0x7F800000#32
  let main_v10 : FVec F S16x34x14880 .f32 := broadcastInDim S16x34x14880 ![] bcast_S_S16x34x14880 main_cst_2
  let main_v11 : IVec S16x34x14880 1 := cmpf .olt main_v9 main_v10
  let main_c_3 : IVec S_ 1 := constantI S_ 1 1#1
  let main_v12 : IVec S_ 1 := (fun x v => Host.reduce IntOp.andi x v reducesTo_S16x34x14880_S_d0_1_2 h_S_) main_v11 main_c_3
  let main_v13 : IVec S_ 1 := andi main_v8 main_v12
  let main_v14 : FVec F S16x34x14880 .f32 := Host.absf main_arg3
  let main_cst_4 : FVec F S_ .f32 := constant S_ .f32 0x7F800000#32
  let main_v15 : FVec F S16x34x14880 .f32 := broadcastInDim S16x34x14880 ![] bcast_S_S16x34x14880 main_cst_4
  let main_v16 : IVec S16x34x14880 1 := cmpf .olt main_v14 main_v15
  fn_part1 (F := F) main_arg4 main_arg5 main_v13 main_v16
-- ==== Kernel.lean ====
abbrev S16x1x128x128 : Shape := ⟨4, ![16, 1, 128, 128]⟩
abbrev S16x2x128x128 : Shape := ⟨4, ![16, 2, 128, 128]⟩
abbrev S16x34x14880 : Shape := ⟨3, ![16, 34, 14880]⟩
abbrev S1x2x34x1 : Shape := ⟨4, ![1, 2, 34, 1]⟩
abbrev S34x11x14880 : Shape := ⟨3, ![34, 11, 14880]⟩
abbrev S14880 : Shape := ⟨1, ![14880]⟩
abbrev S34x14880 : Shape := ⟨2, ![34, 14880]⟩
abbrev S16x16384 : Shape := ⟨2, ![16, 16384]⟩
abbrev S_ : Shape := ⟨0, ![]⟩
abbrev S34x1x14880 : Shape := ⟨3, ![34, 1, 14880]⟩
abbrev S34x14880x1 : Shape := ⟨3, ![34, 14880, 1]⟩
abbrev S16x2x16384 : Shape := ⟨3, ![16, 2, 16384]⟩
abbrev S14880x1 : Shape := ⟨2, ![14880, 1]⟩
abbrev S16x2x14880 : Shape := ⟨3, ![16, 2, 14880]⟩
abbrev S16x2x34x14880 : Shape := ⟨4, ![16, 2, 34, 14880]⟩
abbrev S16x2x1x14880 : Shape := ⟨4, ![16, 2, 1, 14880]⟩
abbrev S1x8 : Shape := ⟨2, ![1, 8]⟩
abbrev S1x34x14880 : Shape := ⟨3, ![1, 34, 14880]⟩
abbrev S1x2x34x14880 : Shape := ⟨4, ![1, 2, 34, 14880]⟩
abbrev S1x34 : Shape := ⟨2, ![1, 34]⟩
abbrev S1x34x1 : Shape := ⟨3, ![1, 34, 1]⟩
abbrev S1x1 : Shape := ⟨2, ![1, 1]⟩
abbrev S1x1x1 : Shape := ⟨3, ![1, 1, 1]⟩
abbrev S1x1x34x14880 : Shape := ⟨4, ![1, 1, 34, 14880]⟩
abbrev S1x1x34x1 : Shape := ⟨4, ![1, 1, 34, 1]⟩

abbrev nBuf : Space → Nat
  | .hbm => 222
  | .vmem => 12
  | .smem => 0
  | _ => 0

abbrev hbmTy0_0 (i : Nat) : BufTy := match i % 128 with
  | 0 => ⟨S16x1x128x128, .f32⟩
  | 1 => ⟨S16x2x128x128, .f32⟩
  | 2 => ⟨S16x34x14880, .f32⟩
  | 3 => ⟨S16x34x14880, .f32⟩
  | 4 => ⟨S16x34x14880, .f32⟩
  | 5 => ⟨S1x2x34x1, .f32⟩
  | 6 => ⟨S34x11x14880, .i32⟩
  | 7 => ⟨S14880, .i32⟩
  | 8 => ⟨S34x14880, .i32⟩
  | 9 => ⟨S16x16384, .f32⟩
  | 10 => ⟨S16x16384, .f32⟩
  | 11 => ⟨S16x16384, .f32⟩
  | 12 => ⟨S_, .f32⟩
  | 13 => ⟨S16x16384, .f32⟩
  | 14 => ⟨S16x16384, .f32⟩
  | 15 => ⟨S_, .f32⟩
  | 16 => ⟨S16x16384, .f32⟩
  | 17 => ⟨S16x16384, .f32⟩
  | 18 => ⟨S34x1x14880, .i32⟩
  | 19 => ⟨S34x14880, .i32⟩
  | 20 => ⟨S_, .i32⟩
  | 21 => ⟨S34x14880, .i32⟩
  | 22 => ⟨S34x14880, .i1⟩
  | 23 => ⟨S_, .i32⟩
  | 24 => ⟨S34x14880, .i32⟩
  | 25 => ⟨S34x14880, .i32⟩
  | 26 => ⟨S34x14880, .i32⟩
  | 27 => ⟨S34x14880x1, .i32⟩
  | 28 => ⟨S16x34x14880, .f32⟩
  | 29 => ⟨S34x1x14880, .i32⟩
  | 30 => ⟨S34x14880, .i32⟩
  | 31 => ⟨S_, .i32⟩
  | 32 => ⟨S34x14880, .i32⟩
  | 33 => ⟨S34x14880, .i1⟩
  | 34 => ⟨S_, .i32⟩
  | 35 => ⟨S34x14880, .i32⟩
  | 36 => ⟨S34x14880, .i32⟩
  | 37 => ⟨S34x14880, .i32⟩
  | 38 => ⟨S34x14880x1, .i32⟩
  | 39 => ⟨S16x34x14880, .f32⟩
  | 40 => ⟨S16x34x14880, .f32⟩
  | 41 => ⟨S34x1x14880, .i32⟩
  | 42 => ⟨S34x14880, .i32⟩
  | 43 => ⟨S_, .i32⟩
  | 44 => ⟨S34x14880, .i32⟩
  | 45 => ⟨S34x14880, .i1⟩
  | 46 => ⟨S_, .i32⟩
  | 47 => ⟨S34x14880, .i32⟩
  | 48 => ⟨S34x14880, .i32⟩
  | 49 => ⟨S34x14880, .i32⟩
  | 50 => ⟨S34x14880x1, .i32⟩
  | 51 => ⟨S16x34x14880, .f32⟩
  | 52 => ⟨S16x34x14880, .f32⟩
  | 53 => ⟨S34x1x14880, .i32⟩
  | 54 => ⟨S34x14880, .i32⟩
  | 55 => ⟨S_, .i32⟩
  | 56 => ⟨S34x14880, .i32⟩
  | 57 => ⟨S34x14880, .i1⟩
  | 58 => ⟨S_, .i32⟩
  | 59 => ⟨S34x14880, .i32⟩
  | 60 => ⟨S34x14880, .i32⟩
  | 61 => ⟨S34x14880, .i32⟩
  | 62 => ⟨S34x14880x1, .i32⟩
  | 63 => ⟨S16x34x14880, .f32⟩
  | 64 => ⟨S16x34x14880, .f32⟩
  | 65 => ⟨S34x1x14880, .i32⟩
  | 66 => ⟨S34x14880, .i32⟩
  | 67 => ⟨S_, .i32⟩
  | 68 => ⟨S34x14880, .i32⟩
  | 69 => ⟨S34x14880, .i1⟩
  | 70 => ⟨S_, .i32⟩
  | 71 => ⟨S34x14880, .i32⟩
  | 72 => ⟨S34x14880, .i32⟩
  | 73 => ⟨S34x14880, .i32⟩
  | 74 => ⟨S34x14880x1, .i32⟩
  | 75 => ⟨S16x34x14880, .f32⟩
  | 76 => ⟨S16x34x14880, .f32⟩
  | 77 => ⟨S34x1x14880, .i32⟩
  | 78 => ⟨S34x14880, .i32⟩
  | 79 => ⟨S_, .i32⟩
  | 80 => ⟨S34x14880, .i32⟩
  | 81 => ⟨S34x14880, .i1⟩
  | 82 => ⟨S_, .i32⟩
  | 83 => ⟨S34x14880, .i32⟩
  | 84 => ⟨S34x14880, .i32⟩
  | 85 => ⟨S34x14880, .i32⟩
  | 86 => ⟨S34x14880x1, .i32⟩
  | 87 => ⟨S16x34x14880, .f32⟩
  | 88 => ⟨S16x34x14880, .f32⟩
  | 89 => ⟨S34x1x14880, .i32⟩
  | 90 => ⟨S34x14880, .i32⟩
  | 91 => ⟨S_, .i32⟩
  | 92 => ⟨S34x14880, .i32⟩
  | 93 => ⟨S34x14880, .i1⟩
  | 94 => ⟨S_, .i32⟩
  | 95 => ⟨S34x14880, .i32⟩
  | 96 => ⟨S34x14880, .i32⟩
  | 97 => ⟨S34x14880, .i32⟩
  | 98 => ⟨S34x14880x1, .i32⟩
  | 99 => ⟨S16x34x14880, .f32⟩
  | 100 => ⟨S16x34x14880, .f32⟩
  | 101 => ⟨S34x1x14880, .i32⟩
  | 102 => ⟨S34x14880, .i32⟩
  | 103 => ⟨S_, .i32⟩
  | 104 => ⟨S34x14880, .i32⟩
  | 105 => ⟨S34x14880, .i1⟩
  | 106 => ⟨S_, .i32⟩
  | 107 => ⟨S34x14880, .i32⟩
  | 108 => ⟨S34x14880, .i32⟩
  | 109 => ⟨S34x14880, .i32⟩
  | 110 => ⟨S34x14880x1, .i32⟩
  | 111 => ⟨S16x34x14880, .f32⟩
  | 112 => ⟨S16x34x14880, .f32⟩
  | 113 => ⟨S34x1x14880, .i32⟩
  | 114 => ⟨S34x14880, .i32⟩
  | 115 => ⟨S_, .i32⟩
  | 116 => ⟨S34x14880, .i32⟩
  | 117 => ⟨S34x14880, .i1⟩
  | 118 => ⟨S_, .i32⟩
  | 119 => ⟨S34x14880, .i32⟩
  | 120 => ⟨S34x14880, .i32⟩
  | 121 => ⟨S34x14880, .i32⟩
  | 122 => ⟨S34x14880x1, .i32⟩
  | 123 => ⟨S16x34x14880, .f32⟩
  | 124 => ⟨S16x34x14880, .f32⟩
  | 125 => ⟨S34x1x14880, .i32⟩
  | 126 => ⟨S34x14880, .i32⟩
  | 127 => ⟨S_, .i32⟩
  | _ => ⟨S16x1x128x128, .f32⟩

abbrev hbmTy0_1 (i : Nat) : BufTy := match i % 128 with
  | 0 => ⟨S34x14880, .i32⟩
  | 1 => ⟨S34x14880, .i1⟩
  | 2 => ⟨S_, .i32⟩
  | 3 => ⟨S34x14880, .i32⟩
  | 4 => ⟨S34x14880, .i32⟩
  | 5 => ⟨S34x14880, .i32⟩
  | 6 => ⟨S34x14880x1, .i32⟩
  | 7 => ⟨S16x34x14880, .f32⟩
  | 8 => ⟨S16x34x14880, .f32⟩
  | 9 => ⟨S34x1x14880, .i32⟩
  | 10 => ⟨S34x14880, .i32⟩
  | 11 => ⟨S_, .i32⟩
  | 12 => ⟨S34x14880, .i32⟩
  | 13 => ⟨S34x14880, .i1⟩
  | 14 => ⟨S_, .i32⟩
  | 15 => ⟨S34x14880, .i32⟩
  | 16 => ⟨S34x14880, .i32⟩
  | 17 => ⟨S34x14880, .i32⟩
  | 18 => ⟨S34x14880x1, .i32⟩
  | 19 => ⟨S16x34x14880, .f32⟩
  | 20 => ⟨S16x34x14880, .f32⟩
  | 21 => ⟨S_, .f32⟩
  | 22 => ⟨S16x34x14880, .f32⟩
  | 23 => ⟨S16x34x14880, .f32⟩
  | 24 => ⟨S16x2x16384, .f32⟩
  | 25 => ⟨S_, .i32⟩
  | 26 => ⟨S14880, .i32⟩
  | 27 => ⟨S14880, .i1⟩
  | 28 => ⟨S_, .i32⟩
  | 29 => ⟨S14880, .i32⟩
  | 30 => ⟨S14880, .i32⟩
  | 31 => ⟨S14880, .i32⟩
  | 32 => ⟨S14880x1, .i32⟩
  | 33 => ⟨S16x2x14880, .f32⟩
  | 34 => ⟨S_, .i32⟩
  | 35 => ⟨S34x14880, .i32⟩
  | 36 => ⟨S34x14880, .i1⟩
  | 37 => ⟨S_, .i32⟩
  | 38 => ⟨S34x14880, .i32⟩
  | 39 => ⟨S34x14880, .i32⟩
  | 40 => ⟨S34x14880, .i32⟩
  | 41 => ⟨S34x14880x1, .i32⟩
  | 42 => ⟨S16x2x34x14880, .f32⟩
  | 43 => ⟨S16x2x1x14880, .f32⟩
  | 44 => ⟨S16x2x34x14880, .f32⟩
  | 45 => ⟨S16x2x34x14880, .f32⟩
  | 46 => ⟨S1x8, .f32⟩
  | 47 => ⟨S1x1, .f32⟩
  | 48 => ⟨S_, .f32⟩
  | 49 => ⟨S1x1, .f32⟩
  | 50 => ⟨S_, .f32⟩
  | 51 => ⟨S1x1, .f32⟩
  | 52 => ⟨S_, .f32⟩
  | 53 => ⟨S1x1, .f32⟩
  | 54 => ⟨S_, .f32⟩
  | 55 => ⟨S1x1, .f32⟩
  | 56 => ⟨S_, .f32⟩
  | 57 => ⟨S1x1, .f32⟩
  | 58 => ⟨S_, .f32⟩
  | 59 => ⟨S1x1, .f32⟩
  | 60 => ⟨S_, .f32⟩
  | 61 => ⟨S1x1, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | _ => ⟨S16x1x128x128, .f32⟩

abbrev hbmTy (i : Nat) : BufTy := match i / 128 with
  | 0 => hbmTy0_0 i
  | 1 => hbmTy0_1 i
  | _ => ⟨S16x1x128x128, .f32⟩

abbrev bufTy : (tb : Table) → Fin (tcTables nBuf tb) → BufTy
  | .hbm, ⟨i, _⟩ => hbmTy i
  | .local _ .vmem, ⟨0, _⟩ => ⟨S1x34x14880, .f32⟩
  | .local _ .vmem, ⟨1, _⟩ => ⟨S1x34x14880, .f32⟩
  | .local _ .vmem, ⟨2, _⟩ => ⟨S1x2x34x14880, .f32⟩
  | .local _ .vmem, ⟨3, _⟩ => ⟨S1x2x34x14880, .f32⟩
  | .local _ .vmem, ⟨4, _⟩ => ⟨S1x2x34x1, .f32⟩
  | .local _ .vmem, ⟨5, _⟩ => ⟨S1x34x14880, .f32⟩
  | .local _ .vmem, ⟨6, _⟩ => ⟨S1x34x14880, .f32⟩
  | .local _ .vmem, ⟨7, _⟩ => ⟨S1x34x14880, .f32⟩
  | .local _ .vmem, ⟨8, _⟩ => ⟨S1x34x14880, .f32⟩
  | .local _ .vmem, ⟨9, _⟩ => ⟨S1x34x14880, .f32⟩
  | .local _ .vmem, ⟨10, _⟩ => ⟨S1x34x14880, .f32⟩
  | .local _ .vmem, ⟨11, _⟩ => ⟨S1x8, .f32⟩
  | _, _ => ⟨S16x1x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_12 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_14 : Ref sig .tc := ⟨.hbm, 103, rfl⟩
abbrev main_v78 : Ref sig .tc := ⟨.hbm, 104, rfl⟩
abbrev main_v79 : Ref sig .tc := ⟨.hbm, 105, rfl⟩
abbrev main_c_15 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_16 : Ref sig .tc := ⟨.hbm, 115, rfl⟩
abbrev main_v88 : Ref sig .tc := ⟨.hbm, 116, rfl⟩
abbrev main_v89 : Ref sig .tc := ⟨.hbm, 117, rfl⟩
abbrev main_c_17 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c_18 : Ref sig .tc := ⟨.hbm, 127, rfl⟩
abbrev main_v98 : Ref sig .tc := ⟨.hbm, 128, rfl⟩
abbrev main_v99 : Ref sig .tc := ⟨.hbm, 129, rfl⟩
abbrev main_c_19 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_c_20 : Ref sig .tc := ⟨.hbm, 139, rfl⟩
abbrev main_v108 : Ref sig .tc := ⟨.hbm, 140, rfl⟩
abbrev main_v109 : Ref sig .tc := ⟨.hbm, 141, rfl⟩
abbrev main_c_21 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_22 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_c_23 : Ref sig .tc := ⟨.hbm, 153, rfl⟩
abbrev main_v119 : Ref sig .tc := ⟨.hbm, 154, rfl⟩
abbrev main_v120 : Ref sig .tc := ⟨.hbm, 155, rfl⟩
abbrev main_c_24 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_c_25 : Ref sig .tc := ⟨.hbm, 162, rfl⟩
abbrev main_v126 : Ref sig .tc := ⟨.hbm, 163, rfl⟩
abbrev main_v127 : Ref sig .tc := ⟨.hbm, 164, rfl⟩
abbrev main_c_26 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_27 : Ref sig .tc := ⟨.hbm, 191, rfl⟩
abbrev main_v153 : Ref sig .tc := ⟨.hbm, 192, rfl⟩
abbrev main_v154 : Ref sig .tc := ⟨.hbm, 193, rfl⟩
abbrev main_cst_28 : Ref sig .tc := ⟨.hbm, 194, rfl⟩
abbrev main_v155 : Ref sig .tc := ⟨.hbm, 195, rfl⟩
abbrev main_v156 : Ref sig .tc := ⟨.hbm, 196, rfl⟩
abbrev main_cst_29 : Ref sig .tc := ⟨.hbm, 197, rfl⟩
abbrev main_v157 : Ref sig .tc := ⟨.hbm, 198, rfl⟩
abbrev main_cst_30 : Ref sig .tc := ⟨.hbm, 199, rfl⟩
abbrev main_v158 : Ref sig .tc := ⟨.hbm, 200, rfl⟩
abbrev main_v159 : Ref sig .tc := ⟨.hbm, 201, rfl⟩
abbrev main_cst_31 : Ref sig .tc := ⟨.hbm, 202, rfl⟩
abbrev main_v160 : Ref sig .tc := ⟨.hbm, 203, rfl⟩
abbrev main_v161 : Ref sig .tc := ⟨.hbm, 204, rfl⟩
abbrev main_cst_32 : Ref sig .tc := ⟨.hbm, 205, rfl⟩
abbrev main_v162 : Ref sig .tc := ⟨.hbm, 206, rfl⟩
abbrev main_cst_33 : Ref sig .tc := ⟨.hbm, 207, rfl⟩
abbrev main_v163 : Ref sig .tc := ⟨.hbm, 208, rfl⟩
abbrev main_v164 : Ref sig .tc := ⟨.hbm, 209, rfl⟩
abbrev main_cst_34 : Ref sig .tc := ⟨.hbm, 210, rfl⟩
abbrev main_v165 : Ref sig .tc := ⟨.hbm, 211, rfl⟩
abbrev main_cst_35 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_36 : Ref sig .tc := ⟨.hbm, 216, rfl⟩
abbrev main_v169 : Ref sig .tc := ⟨.hbm, 217, rfl⟩
abbrev main_v170 : Ref sig .tc := ⟨.hbm, 218, rfl⟩
abbrev main_cst_37 : Ref sig .tc := ⟨.hbm, 219, rfl⟩
abbrev main_v171 : Ref sig .tc := ⟨.hbm, 220, rfl⟩
abbrev main_v172 : Ref sig .tc := ⟨.hbm, 221, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x34x14880 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x34x14880 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2x34x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x34x14880 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x34x14880 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x34x14880 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S16x1x128x128_S16x16384 : S16x1x128x128.ShapeCasts S16x16384
  bcast_S_S16x16384 : S_.BroadcastsInDim S16x16384 (![] : Fin 0 → Fin S16x16384.rank)
  slices_S34x11x14880_S34x1x14880_0_0_0 : S34x11x14880.Slices ![0, 0, 0] S34x1x14880
  shapeCasts_S34x1x14880_S34x14880 : S34x1x14880.ShapeCasts S34x14880
  bcast_S_S34x14880 : S_.BroadcastsInDim S34x14880 (![] : Fin 0 → Fin S34x14880.rank)
  bcast_S34x14880_S34x14880x1_0_1 : S34x14880.BroadcastsInDim S34x14880x1 (![0, 1] : Fin 2 → Fin S34x14880x1.rank)
  slices_S34x11x14880_S34x1x14880_0_1_0 : S34x11x14880.Slices ![0, 1, 0] S34x1x14880
  slices_S34x11x14880_S34x1x14880_0_2_0 : S34x11x14880.Slices ![0, 2, 0] S34x1x14880
  slices_S34x11x14880_S34x1x14880_0_3_0 : S34x11x14880.Slices ![0, 3, 0] S34x1x14880
  slices_S34x11x14880_S34x1x14880_0_4_0 : S34x11x14880.Slices ![0, 4, 0] S34x1x14880
  slices_S34x11x14880_S34x1x14880_0_5_0 : S34x11x14880.Slices ![0, 5, 0] S34x1x14880
  slices_S34x11x14880_S34x1x14880_0_6_0 : S34x11x14880.Slices ![0, 6, 0] S34x1x14880
  slices_S34x11x14880_S34x1x14880_0_7_0 : S34x11x14880.Slices ![0, 7, 0] S34x1x14880
  slices_S34x11x14880_S34x1x14880_0_8_0 : S34x11x14880.Slices ![0, 8, 0] S34x1x14880
  slices_S34x11x14880_S34x1x14880_0_9_0 : S34x11x14880.Slices ![0, 9, 0] S34x1x14880
  slices_S34x11x14880_S34x1x14880_0_10_0 : S34x11x14880.Slices ![0, 10, 0] S34x1x14880
  bcast_S_S16x34x14880 : S_.BroadcastsInDim S16x34x14880 (![] : Fin 0 → Fin S16x34x14880.rank)
  shapeCasts_S16x2x128x128_S16x2x16384 : S16x2x128x128.ShapeCasts S16x2x16384
  bcast_S_S14880 : S_.BroadcastsInDim S14880 (![] : Fin 0 → Fin S14880.rank)
  bcast_S14880_S14880x1_0 : S14880.BroadcastsInDim S14880x1 (![0] : Fin 1 → Fin S14880x1.rank)
  bcast_S16x2x14880_S16x2x1x14880_0_1_3 : S16x2x14880.BroadcastsInDim S16x2x1x14880 (![0, 1, 3] : Fin 3 → Fin S16x2x1x14880.rank)
  bcast_S16x2x1x14880_S16x2x34x14880_0_1_2_3 : S16x2x1x14880.BroadcastsInDim S16x2x34x14880 (![0, 1, 2, 3] : Fin 4 → Fin S16x2x34x14880.rank)
  inb_S1x34x14880_S1x34x14880_0_0_0 : ∀ a, (![0, 0, 0] : Fin 3 → Nat) a + S1x34x14880.size a ≤ S1x34x14880.size a
  h_S1x34x14880 : 0 < S1x34x14880.numel
  shapeCasts_S1x34x14880_S1x34x14880 : S1x34x14880.ShapeCasts S1x34x14880
  reduces_S1x34x14880_S1x34 : S1x34x14880.Reduces [2] S1x34
  shapeCasts_S1x34_S1x34x1 : S1x34.ShapeCasts S1x34x1
  reduces_S1x34x1_S1x1 : S1x34x1.Reduces [1] S1x1
  shapeCasts_S1x1_S1x1x1 : S1x1.ShapeCasts S1x1x1
  shapeCasts_S1x1x1_S1x1 : S1x1x1.ShapeCasts S1x1
  inb_S1x2x34x14880_S1x2x34x14880_0_0_0_0 : ∀ a, (![0, 0, 0, 0] : Fin 4 → Nat) a + S1x2x34x14880.size a ≤ S1x2x34x14880.size a
  h_S1x2x34x14880 : 0 < S1x2x34x14880.numel
  shapeCasts_S1x2x34x14880_S1x2x34x14880 : S1x2x34x14880.ShapeCasts S1x2x34x14880
  inb_S1x2x34x1_S1x2x34x1_0_0_0_0 : ∀ a, (![0, 0, 0, 0] : Fin 4 → Nat) a + S1x2x34x1.size a ≤ S1x2x34x1.size a
  h_S1x2x34x1 : 0 < S1x2x34x1.numel
  slices_S1x2x34x14880_o0_0_0_0_S1x1x34x14880 : S1x2x34x14880.Slices ![0, 0, 0, 0] S1x1x34x14880
  shapeCasts_S1x1x34x14880_S1x34x14880 : S1x1x34x14880.ShapeCasts S1x34x14880
  slices_S1x2x34x1_o0_0_0_0_S1x1x34x1 : S1x2x34x1.Slices ![0, 0, 0, 0] S1x1x34x1
  shapeCasts_S1x1x34x1_S1x34x1 : S1x1x34x1.ShapeCasts S1x34x1
  broadcasts_S1x34x1_S1x34x14880 : S1x34x1.Broadcasts S1x34x14880
  slices_S1x2x34x14880_o0_1_0_0_S1x1x34x14880 : S1x2x34x14880.Slices ![0, 1, 0, 0] S1x1x34x14880
  slices_S1x2x34x1_o0_1_0_0_S1x1x34x1 : S1x2x34x1.Slices ![0, 1, 0, 0] S1x1x34x1
  concatenates_S1x1_S1x1_S1x1_S1x1_S1x1_S1x1_S1x1_S1x1_S1x8_d1 : Shape.Concatenates [S1x1, S1x1, S1x1, S1x1, S1x1, S1x1, S1x1, S1x1] S1x8 1
  inb_S1x8_S1x8_0_0 : ∀ a, (![0, 0] : Fin 2 → Nat) a + S1x8.size a ≤ S1x8.size a
  h_S1x8 : 0 < S1x8.numel
  shapeCasts_S1x8_S1x8 : S1x8.ShapeCasts S1x8
  slices_S1x8_S1x1_0_0 : S1x8.Slices ![0, 0] S1x1
  shapeCasts_S1x1_S_ : S1x1.ShapeCasts S_
  slices_S1x8_S1x1_0_1 : S1x8.Slices ![0, 1] S1x1
  slices_S1x8_S1x1_0_2 : S1x8.Slices ![0, 2] S1x1
  slices_S1x8_S1x1_0_3 : S1x8.Slices ![0, 3] S1x1
  slices_S1x8_S1x1_0_4 : S1x8.Slices ![0, 4] S1x1
  slices_S1x8_S1x1_0_5 : S1x8.Slices ![0, 5] S1x1
  slices_S1x8_S1x1_0_6 : S1x8.Slices ![0, 6] S1x1
  slices_S1x8_S1x1_0_7 : S1x8.Slices ![0, 7] S1x1
  gather_S16x16384_S34x14880x1_S16x34x14880_0_1_n_n_1_2_161_wf : GatherDims.WF S16x16384 S34x14880x1 S16x34x14880 [0] [1] [] [1] [] 2 ![16, 1]
  gather_S16x2x16384_S14880x1_S16x2x14880_01_2_n_n_2_1_1621_wf : GatherDims.WF S16x2x16384 S14880x1 S16x2x14880 [0, 1] [2] [] [2] [] 1 ![16, 2, 1]
  gather_S16x2x16384_S34x14880x1_S16x2x34x14880_01_2_n_n_2_2_1621_wf : GatherDims.WF S16x2x16384 S34x14880x1 S16x2x34x14880 [0, 1] [2] [] [2] [] 2 ![16, 2, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x34x14880.size a ≤ S16x34x14880.size a
  hwx0_0 : ∀ i : grid0.Coords, EltTy.bits .f32 = 32 ∨ (Rect.block (s := S16x34x14880) S1x34x14880.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x34x14880.size a ≤ S16x2x34x14880.size a
  hwx0_1 : ∀ i : grid0.Coords, EltTy.bits .f32 = 32 ∨ (Rect.block (s := S16x2x34x14880) S1x2x34x14880.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2x34x1.size a ≤ S1x2x34x1.size a
  hwx0_2 : ∀ i : grid0.Coords, EltTy.bits .f32 = 32 ∨ (Rect.block (s := S1x2x34x1) S1x2x34x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x34x14880.size a ≤ S16x34x14880.size a
  hwx0_3 : ∀ i : grid0.Coords, EltTy.bits .f32 = 32 ∨ (Rect.block (s := S16x34x14880) S1x34x14880.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x34x14880.size a ≤ S16x34x14880.size a
  hwx0_4 : ∀ i : grid0.Coords, EltTy.bits .f32 = 32 ∨ (Rect.block (s := S16x34x14880) S1x34x14880.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x34x14880.size a ≤ S16x34x14880.size a
  hwx0_5 : ∀ i : grid0.Coords, EltTy.bits .f32 = 32 ∨ (Rect.block (s := S16x34x14880) S1x34x14880.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)

variable [Facts₀]

def gather_S16x16384_S34x14880x1_S16x34x14880_0_1_n_n_1_2_161 : GatherDims S16x16384 S34x14880x1 S16x34x14880 where
  offsetDims := [0]
  collapsedSliceDims := [1]
  operandBatchingDims := []
  startIndicesBatchingDims := []
  startIndexMap := [1]
  indexVectorDim := 2
  sliceSizes := ![16, 1]
  wf := gather_S16x16384_S34x14880x1_S16x34x14880_0_1_n_n_1_2_161_wf
def gather_S16x2x16384_S14880x1_S16x2x14880_01_2_n_n_2_1_1621 : GatherDims S16x2x16384 S14880x1 S16x2x14880 where
  offsetDims := [0, 1]
  collapsedSliceDims := [2]
  operandBatchingDims := []
  startIndicesBatchingDims := []
  startIndexMap := [2]
  indexVectorDim := 1
  sliceSizes := ![16, 2, 1]
  wf := gather_S16x2x16384_S14880x1_S16x2x14880_01_2_n_n_2_1_1621_wf
def gather_S16x2x16384_S34x14880x1_S16x2x34x14880_01_2_n_n_2_2_1621 : GatherDims S16x2x16384 S34x14880x1 S16x2x34x14880 where
  offsetDims := [0, 1]
  collapsedSliceDims := [2]
  operandBatchingDims := []
  startIndicesBatchingDims := []
  startIndexMap := [2]
  indexVectorDim := 2
  sliceSizes := ![16, 2, 1]
  wf := gather_S16x2x16384_S34x14880x1_S16x2x34x14880_01_2_n_n_2_2_1621_wf

abbrev win0_0 : Pipeline.Window sig grid0 :=
  Pipeline.Window.ofSpec (Memref.whole main_v117) S1x34x14880.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v135) S1x2x34x14880.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x2x34x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x34x14880.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x34x14880.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x34x14880.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v136) S1x8.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x1x128x128 : Shape := ⟨4, ![16, 1, 128, 128]⟩
abbrev S16x2x128x128 : Shape := ⟨4, ![16, 2, 128, 128]⟩
abbrev S16x34x14880 : Shape := ⟨3, ![16, 34, 14880]⟩
abbrev S1x2x34x1 : Shape := ⟨4, ![1, 2, 34, 1]⟩
abbrev S34x11x14880 : Shape := ⟨3, ![34, 11, 14880]⟩
abbrev S14880 : Shape := ⟨1, ![14880]⟩
abbrev S34x14880 : Shape := ⟨2, ![34, 14880]⟩
abbrev S16x16384 : Shape := ⟨2, ![16, 16384]⟩
abbrev S_ : Shape := ⟨0, ![]⟩
abbrev S34x11x14880x1 : Shape := ⟨4, ![34, 11, 14880, 1]⟩
abbrev S16x34x11x14880 : Shape := ⟨4, ![16, 34, 11, 14880]⟩
abbrev S16x2x16384 : Shape := ⟨3, ![16, 2, 16384]⟩
abbrev S14880x1 : Shape := ⟨2, ![14880, 1]⟩
abbrev S16x2x14880 : Shape := ⟨3, ![16, 2, 14880]⟩
abbrev S16x2x1x14880 : Shape := ⟨4, ![16, 2, 1, 14880]⟩
abbrev S34x14880x1 : Shape := ⟨3, ![34, 14880, 1]⟩
abbrev S16x2x34x14880 : Shape := ⟨4, ![16, 2, 34, 14880]⟩
abbrev S16x1x34x14880 : Shape := ⟨4, ![16, 1, 34, 14880]⟩

abbrev nBuf : Space → Nat
  | .hbm => 128
  | .vmem => 0
  | .smem => 0
  | _ => 0

abbrev bufTy : (tb : Table) → Fin (tcTables nBuf tb) → BufTy
  | .hbm, ⟨0, _⟩ => ⟨S16x1x128x128, .f32⟩
  | .hbm, ⟨1, _⟩ => ⟨S16x2x128x128, .f32⟩
  | .hbm, ⟨2, _⟩ => ⟨S16x34x14880, .f32⟩
  | .hbm, ⟨3, _⟩ => ⟨S16x34x14880, .f32⟩
  | .hbm, ⟨4, _⟩ => ⟨S16x34x14880, .f32⟩
  | .hbm, ⟨5, _⟩ => ⟨S1x2x34x1, .f32⟩
  | .hbm, ⟨6, _⟩ => ⟨S34x11x14880, .i32⟩
  | .hbm, ⟨7, _⟩ => ⟨S14880, .i32⟩
  | .hbm, ⟨8, _⟩ => ⟨S34x14880, .i32⟩
  | .hbm, ⟨9, _⟩ => ⟨S16x16384, .f32⟩
  | .hbm, ⟨10, _⟩ => ⟨S16x16384, .f32⟩
  | .hbm, ⟨11, _⟩ => ⟨S16x16384, .f32⟩
  | .hbm, ⟨12, _⟩ => ⟨S_, .f32⟩
  | .hbm, ⟨13, _⟩ => ⟨S16x16384, .f32⟩
  | .hbm, ⟨14, _⟩ => ⟨S16x16384, .f32⟩
  | .hbm, ⟨15, _⟩ => ⟨S_, .f32⟩
  | .hbm, ⟨16, _⟩ => ⟨S16x16384, .f32⟩
  | .hbm, ⟨17, _⟩ => ⟨S16x16384, .f32⟩
  | .hbm, ⟨18, _⟩ => ⟨S_, .i32⟩
  | .hbm, ⟨19, _⟩ => ⟨S34x11x14880, .i32⟩
  | .hbm, ⟨20, _⟩ => ⟨S34x11x14880, .i1⟩
  | .hbm, ⟨21, _⟩ => ⟨S_, .i32⟩
  | .hbm, ⟨22, _⟩ => ⟨S34x11x14880, .i32⟩
  | .hbm, ⟨23, _⟩ => ⟨S34x11x14880, .i32⟩
  | .hbm, ⟨24, _⟩ => ⟨S34x11x14880, .i32⟩
  | .hbm, ⟨25, _⟩ => ⟨S34x11x14880x1, .i32⟩
  | .hbm, ⟨26, _⟩ => ⟨S16x34x11x14880, .f32⟩
  | .hbm, ⟨27, _⟩ => ⟨S_, .f32⟩
  | .hbm, ⟨28, _⟩ => ⟨S16x34x14880, .f32⟩
  | .hbm, ⟨29, _⟩ => ⟨S_, .f32⟩
  | .hbm, ⟨30, _⟩ => ⟨S16x34x14880, .f32⟩
  | .hbm, ⟨31, _⟩ => ⟨S16x34x14880, .f32⟩
  | .hbm, ⟨32, _⟩ => ⟨S_, .f32⟩
  | .hbm, ⟨33, _⟩ => ⟨S16x34x14880, .f32⟩
  | .hbm, ⟨34, _⟩ => ⟨S16x34x14880, .f32⟩
  | .hbm, ⟨35, _⟩ => ⟨S16x34x14880, .f32⟩
  | .hbm, ⟨36, _⟩ => ⟨S16x34x14880, .f32⟩
  | .hbm, ⟨37, _⟩ => ⟨S_, .f32⟩
  | .hbm, ⟨38, _⟩ => ⟨S16x34x14880, .f32⟩
  | .hbm, ⟨39, _⟩ => ⟨S16x34x14880, .f32⟩
  | .hbm, ⟨40, _⟩ => ⟨S16x34x14880, .f32⟩
  | .hbm, ⟨41, _⟩ => ⟨S16x34x14880, .f32⟩
  | .hbm, ⟨42, _⟩ => ⟨S16x2x16384, .f32⟩
  | .hbm, ⟨43, _⟩ => ⟨S_, .i32⟩
  | .hbm, ⟨44, _⟩ => ⟨S14880, .i32⟩
  | .hbm, ⟨45, _⟩ => ⟨S14880, .i1⟩
  | .hbm, ⟨46, _⟩ => ⟨S_, .i32⟩
  | .hbm, ⟨47, _⟩ => ⟨S14880, .i32⟩
  | .hbm, ⟨48, _⟩ => ⟨S14880, .i32⟩
  | .hbm, ⟨49, _⟩ => ⟨S14880, .i32⟩
  | .hbm, ⟨50, _⟩ => ⟨S14880x1, .i32⟩
  | .hbm, ⟨51, _⟩ => ⟨S16x2x14880, .f32⟩
  | .hbm, ⟨52, _⟩ => ⟨S16x2x1x14880, .f32⟩
  | .hbm, ⟨53, _⟩ => ⟨S_, .i32⟩
  | .hbm, ⟨54, _⟩ => ⟨S34x14880, .i32⟩
  | .hbm, ⟨55, _⟩ => ⟨S34x14880, .i1⟩
  | .hbm, ⟨56, _⟩ => ⟨S_, .i32⟩
  | .hbm, ⟨57, _⟩ => ⟨S34x14880, .i32⟩
  | .hbm, ⟨58, _⟩ => ⟨S34x14880, .i32⟩
  | .hbm, ⟨59, _⟩ => ⟨S34x14880, .i32⟩
  | .hbm, ⟨60, _⟩ => ⟨S34x14880x1, .i32⟩
  | .hbm, ⟨61, _⟩ => ⟨S16x2x34x14880, .f32⟩
  | .hbm, ⟨62, _⟩ => ⟨S16x2x34x14880, .f32⟩
  | .hbm, ⟨63, _⟩ => ⟨S16x2x34x14880, .f32⟩
  | .hbm, ⟨64, _⟩ => ⟨S16x2x34x14880, .f32⟩
  | .hbm, ⟨65, _⟩ => ⟨S16x2x34x14880, .f32⟩
  | .hbm, ⟨66, _⟩ => ⟨S16x2x34x14880, .f32⟩
  | .hbm, ⟨67, _⟩ => ⟨S16x2x34x14880, .f32⟩
  | .hbm, ⟨68, _⟩ => ⟨S16x34x14880, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S16x34x14880, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S16x34x14880, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S16x1x34x14880, .f32⟩
  | .hbm, ⟨98, _⟩ => ⟨S16x2x34x14880, .f32⟩
  | .hbm, ⟨99, _⟩ => ⟨S16x2x34x14880, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S16x1x34x14880, .f32⟩
  | .hbm, ⟨110, _⟩ => ⟨S16x2x34x14880, .f32⟩
  | .hbm, ⟨111, _⟩ => ⟨S16x2x34x14880, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S16x1x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_cst_15 : Ref sig .tc := ⟨.hbm, 81, rfl⟩
abbrev main_v55 : Ref sig .tc := ⟨.hbm, 82, rfl⟩
abbrev main_v56 : Ref sig .tc := ⟨.hbm, 83, rfl⟩
abbrev main_cst_16 : Ref sig .tc := ⟨.hbm, 84, rfl⟩
abbrev main_v57 : Ref sig .tc := ⟨.hbm, 85, rfl⟩
abbrev main_cst_17 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_18 : Ref sig .tc := ⟨.hbm, 90, rfl⟩
abbrev main_v61 : Ref sig .tc := ⟨.hbm, 91, rfl⟩
abbrev main_cst_19 : Ref sig .tc := ⟨.hbm, 92, rfl⟩
abbrev main_v62 : Ref sig .tc := ⟨.hbm, 93, rfl⟩
abbrev main_cst_20 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_21 : Ref sig .tc := ⟨.hbm, 100, rfl⟩
abbrev main_v68 : Ref sig .tc := ⟨.hbm, 101, rfl⟩
abbrev main_cst_22 : Ref sig .tc := ⟨.hbm, 102, rfl⟩
abbrev main_v69 : Ref sig .tc := ⟨.hbm, 103, rfl⟩
abbrev main_cst_23 : Ref sig .tc := ⟨.hbm, 104, rfl⟩
abbrev main_v70 : Ref sig .tc := ⟨.hbm, 105, rfl⟩
abbrev main_cst_24 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_25 : Ref sig .tc := ⟨.hbm, 112, rfl⟩
abbrev main_v76 : Ref sig .tc := ⟨.hbm, 113, rfl⟩
abbrev main_cst_26 : Ref sig .tc := ⟨.hbm, 114, rfl⟩
abbrev main_v77 : Ref sig .tc := ⟨.hbm, 115, rfl⟩
abbrev main_cst_27 : Ref sig .tc := ⟨.hbm, 116, rfl⟩
abbrev main_v78 : Ref sig .tc := ⟨.hbm, 117, rfl⟩
abbrev main_cst_28 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_29 : Ref sig .tc := ⟨.hbm, 122, rfl⟩
abbrev main_v82 : Ref sig .tc := ⟨.hbm, 123, rfl⟩
abbrev main_v83 : Ref sig .tc := ⟨.hbm, 124, rfl⟩
abbrev main_cst_30 : Ref sig .tc := ⟨.hbm, 125, rfl⟩
abbrev main_v84 : Ref sig .tc := ⟨.hbm, 126, rfl⟩
abbrev main_v85 : Ref sig .tc := ⟨.hbm, 127, rfl⟩

abbrev nD : Nat := 1
abbrev τ : Topo := Topo.v7x

variable {F : FTy → Type} [FloatOps F]

class Facts₀ : Prop where
  shapeCasts_S16x1x128x128_S16x16384 : S16x1x128x128.ShapeCasts S16x16384
  bcast_S_S16x16384 : S_.BroadcastsInDim S16x16384 (![] : Fin 0 → Fin S16x16384.rank)
  bcast_S_S34x11x14880 : S_.BroadcastsInDim S34x11x14880 (![] : Fin 0 → Fin S34x11x14880.rank)
  bcast_S34x11x14880_S34x11x14880x1_0_1_2 : S34x11x14880.BroadcastsInDim S34x11x14880x1 (![0, 1, 2] : Fin 3 → Fin S34x11x14880x1.rank)
  reducesTo_S16x34x11x14880_S16x34x14880_d2 : S16x34x11x14880.ReducesTo [2] S16x34x14880
  h_S_ : 0 < S_.numel
  bcast_S_S16x34x14880 : S_.BroadcastsInDim S16x34x14880 (![] : Fin 0 → Fin S16x34x14880.rank)
  shapeCasts_S16x2x128x128_S16x2x16384 : S16x2x128x128.ShapeCasts S16x2x16384
  bcast_S_S14880 : S_.BroadcastsInDim S14880 (![] : Fin 0 → Fin S14880.rank)
  bcast_S14880_S14880x1_0 : S14880.BroadcastsInDim S14880x1 (![0] : Fin 1 → Fin S14880x1.rank)
  bcast_S16x2x14880_S16x2x1x14880_0_1_3 : S16x2x14880.BroadcastsInDim S16x2x1x14880 (![0, 1, 3] : Fin 3 → Fin S16x2x1x14880.rank)
  bcast_S_S34x14880 : S_.BroadcastsInDim S34x14880 (![] : Fin 0 → Fin S34x14880.rank)
  bcast_S34x14880_S34x14880x1_0_1 : S34x14880.BroadcastsInDim S34x14880x1 (![0, 1] : Fin 2 → Fin S34x14880x1.rank)
  bcast_S16x2x1x14880_S16x2x34x14880_0_1_2_3 : S16x2x1x14880.BroadcastsInDim S16x2x34x14880 (![0, 1, 2, 3] : Fin 4 → Fin S16x2x34x14880.rank)
  bcast_S1x2x34x1_S16x2x34x14880_0_1_2_3 : S1x2x34x1.BroadcastsInDim S16x2x34x14880 (![0, 1, 2, 3] : Fin 4 → Fin S16x2x34x14880.rank)
  reducesTo_S16x34x14880_S_d0_1_2 : S16x34x14880.ReducesTo [0, 1, 2] S_
  bcast_S16x34x14880_S16x1x34x14880_0_2_3 : S16x34x14880.BroadcastsInDim S16x1x34x14880 (![0, 2, 3] : Fin 3 → Fin S16x1x34x14880.rank)
  bcast_S16x1x34x14880_S16x2x34x14880_0_1_2_3 : S16x1x34x14880.BroadcastsInDim S16x2x34x14880 (![0, 1, 2, 3] : Fin 4 → Fin S16x2x34x14880.rank)
  reducesTo_S16x2x34x14880_S_d0_1_2_3 : S16x2x34x14880.ReducesTo [0, 1, 2, 3] S_
  gather_S16x16384_S34x11x14880x1_S16x34x11x14880_0_1_n_n_1_3_161_wf : GatherDims.WF S16x16384 S34x11x14880x1 S16x34x11x14880 [0] [1] [] [1] [] 3 ![16, 1]
  gather_S16x2x16384_S14880x1_S16x2x14880_01_2_n_n_2_1_1621_wf : GatherDims.WF S16x2x16384 S14880x1 S16x2x14880 [0, 1] [2] [] [2] [] 1 ![16, 2, 1]
  gather_S16x2x16384_S34x14880x1_S16x2x34x14880_01_2_n_n_2_2_1621_wf : GatherDims.WF S16x2x16384 S34x14880x1 S16x2x34x14880 [0, 1] [2] [] [2] [] 2 ![16, 2, 1]

variable [Facts₀]

def gather_S16x16384_S34x11x14880x1_S16x34x11x14880_0_1_n_n_1_3_161 : GatherDims S16x16384 S34x11x14880x1 S16x34x11x14880 where
  offsetDims := [0]
  collapsedSliceDims := [1]
  operandBatchingDims := []
  startIndicesBatchingDims := []
  startIndexMap := [1]
  indexVectorDim := 3
  sliceSizes := ![16, 1]
  wf := gather_S16x16384_S34x11x14880x1_S16x34x11x14880_0_1_n_n_1_3_161_wf
def gather_S16x2x16384_S14880x1_S16x2x14880_01_2_n_n_2_1_1621 : GatherDims S16x2x16384 S14880x1 S16x2x14880 where
  offsetDims := [0, 1]
  collapsedSliceDims := [2]
  operandBatchingDims := []
  startIndicesBatchingDims := []
  startIndexMap := [2]
  indexVectorDim := 1
  sliceSizes := ![16, 2, 1]
  wf := gather_S16x2x16384_S14880x1_S16x2x14880_01_2_n_n_2_1_1621_wf
def gather_S16x2x16384_S34x14880x1_S16x2x34x14880_01_2_n_n_2_2_1621 : GatherDims S16x2x16384 S34x14880x1 S16x2x34x14880 where
  offsetDims := [0, 1]
  collapsedSliceDims := [2]
  operandBatchingDims := []
  startIndicesBatchingDims := []
  startIndexMap := [2]
  indexVectorDim := 2
  sliceSizes := ![16, 2, 1]
  wf := gather_S16x2x16384_S34x14880x1_S16x2x34x14880_01_2_n_n_2_2_1621_wf

class Facts : Prop extends Facts₀ where

variable [Facts]
-- ==== Proof.Body.lean ====
/-
  What one grid point leaves in the output block.

  The output block holds eight numbers. At every grid point the body adds to them the eight sums of that point's batch
  slice (`step`): over the slice's 34 × 14880 entries, of bg · (-log (A + ε)), of bg, of fg · (-log (A + ε)), of fg, of
  neg · (-log (1 + ε - A)), of neg, and — the two displacement channels one after the other, from zero — of |D - target| · fg
  and of |D| · bg. At the first point the block is first set to zero and the sums are added to that zero; at every later
  point they are added to what the point before left.
-/
import proofs.«176454_j5901285064958_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The block of eight zeros the first point stores. -/
abbrev zero8 : FVec F S1x8 .f32 := k0_pay1

/-- One point's update of the output block: the block `acc` plus the eight sums of the point's slices — `x0` the affinity,
    `x1` the pair displacement, `x2` the displacement target, `x3`, `x4`, `x5` the bg, fg and neg labels. -/
def step (x0 : Vec F S1x34x14880 .f32) (x1 : Vec F S1x2x34x14880 .f32) (x2 : Vec F S1x2x34x1 .f32) (x3 : Vec F S1x34x14880 .f32) (x4 : Vec F S1x34x14880 .f32) (x5 : Vec F S1x34x14880 .f32) (acc : Vec F S1x8 .f32) : FVec F S1x8 .f32 :=
  k0_pay2 x3 x4 (k0_pay6 x0 x3) (k0_pay7 x3) (k0_pay8 x0 x4) (k0_pay10 (k0_pay9 x4)) (k0_pay11 x5 (k0_pay5 x0))
    (k0_pay12 x5) x2 (k0_pay15 x4 x1 x2) (k0_pay16 x3 x1) (k0_pay17 x1) acc

/-- A later point: the body leaves, in the output block holding `xo`, the update of `xo`. -/
theorem out_B (c : Dev nD) (i : grid0.Coords) (a1 : Memref sig .tc .vmem S1x34x14880 .f32) (h1 : a1.IsWhole) (a2 : Memref sig .tc .vmem S1x2x34x14880 .f32) (h2 : a2.IsWhole) (a3 : Memref sig .tc .vmem S1x2x34x1 .f32) (h3 : a3.IsWhole) (a4 : Memref sig .tc .vmem S1x34x14880 .f32) (h4 : a4.IsWhole) (a5 : Memref sig .tc .vmem S1x34x14880 .f32) (h5 : a5.IsWhole) (a6 : Memref sig .tc .vmem S1x34x14880 .f32) (h6 : a6.IsWhole) (a7 : Memref sig .tc .vmem S1x8 .f32) (h7 : a7.IsWhole) (hc : ¬cond0_0 i)
    (x0 : Vec F S1x34x14880 .f32) (x1 : Vec F S1x2x34x14880 .f32) (x2 : Vec F S1x2x34x1 .f32) (x3 : Vec F S1x34x14880 .f32) (x4 : Vec F S1x34x14880 .f32) (x5 : Vec F S1x34x14880 .f32) (xo : Vec F S1x8 .f32) :
    out0_B_6 c i a1 h1 a2 h2 a3 h3 a4 h4 a5 h5 a6 h6 a7 h7 hc x0 x1 x2 x3 x4 x5 xo = step x0 x1 x2 x3 x4 x5 xo := by
  unfold out0_B_6
  rw [View.read_writes_eq_canon _ _ _ (cover0_B_6 c i a1 h1 a2 h2 a3 h3 a4 h4 a5 h5 a6 h6 a7 h7 hc x0 x1 x2 x3 x4 x5 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread,
    View.ld_unit_zero (S := S1x34x14880) hz3, View.ld_unit_zero (S := S1x2x34x14880) hz4, View.ld_unit_zero (S := S1x2x34x1) hz4, View.ld_unit_zero (S := S1x8) hz2]
  rfl

/-- The first point: the body stores the eight zeros, reads them back, and leaves their update. -/
theorem out_A (c : Dev nD) (i : grid0.Coords) (a1 : Memref sig .tc .vmem S1x34x14880 .f32) (h1 : a1.IsWhole) (a2 : Memref sig .tc .vmem S1x2x34x14880 .f32) (h2 : a2.IsWhole) (a3 : Memref sig .tc .vmem S1x2x34x1 .f32) (h3 : a3.IsWhole) (a4 : Memref sig .tc .vmem S1x34x14880 .f32) (h4 : a4.IsWhole) (a5 : Memref sig .tc .vmem S1x34x14880 .f32) (h5 : a5.IsWhole) (a6 : Memref sig .tc .vmem S1x34x14880 .f32) (h6 : a6.IsWhole) (a7 : Memref sig .tc .vmem S1x8 .f32) (h7 : a7.IsWhole) (hc : cond0_0 i)
    (x0 : Vec F S1x34x14880 .f32) (x1 : Vec F S1x2x34x14880 .f32) (x2 : Vec F S1x2x34x1 .f32) (x3 : Vec F S1x34x14880 .f32) (x4 : Vec F S1x34x14880 .f32) (x5 : Vec F S1x34x14880 .f32) :
    out0_A_6 c i a1 h1 a2 h2 a3 h3 a4 h4 a5 h5 a6 h6 a7 h7 hc x0 x1 x2 x3 x4 x5 = step x0 x1 x2 x3 x4 x5 zero8 := by
  unfold out0_A_6
  rw [View.read_writes_eq_canon _ _ _ (cover0_A_6 c i a1 h1 a2 h2 a3 h3 a4 h4 a5 h5 a6 h6 a7 h7 hc x0 x1 x2 x3 x4 x5)]
  unfold kernelRun0_A
  dsimp only
  sl_unfold_words
  rw [View.canon_cons_unit_zero (S := S1x8) hz2, View.readCov_unit_zero (S := S1x8) _ hz2]
  simp only [View.readAt_eq_ld, h1.read_unread, h2.read_unread, h3.read_unread, h4.read_unread, h5.read_unread, h6.read_unread, h7.read_unread,
    View.ld_unit_zero (S := S1x34x14880) hz3, View.ld_unit_zero (S := S1x2x34x14880) hz4, View.ld_unit_zero (S := S1x2x34x1) hz4, View.ld_unit_zero (S := S1x8) hz2]
  rfl

end Cert.KernelIdeal.Body

end
-- ==== Proof.Elem.lean ====
/-
  The three element functions of the loss, on the extended reals: the loss of a positive pair `-log (a + ε)`, the loss
  of a negative pair `-log ((1 + ε) - a)`, and the absolute value `max x (-x)`. ε and 1 + ε are the two single-precision
  words the programs carry (the same words in both), never evaluated.
-/
import Idealize.ShloMosaic.PureOps.Ideal

noncomputable section

namespace Cert.Elem

open Idealize.ShloMosaic

/-- ε, the single-precision word nearest 1e-5, as the extended real it denotes. -/
abbrev eps : EReal := Ideal.ofBits .f32 0x3727C5AC#32
/-- 1 + ε as the programs carry it: the single-precision word nearest 1.00001. -/
abbrev onePlusEps : EReal := Ideal.ofBits .f32 0x3F800054#32

/-- The loss of a positive pair at affinity `a`. -/
def posL (a : EReal) : EReal := -(Ideal.log (a + eps))
/-- The loss of a negative pair at affinity `a`. -/
def negL (a : EReal) : EReal := -(Ideal.log (onePlusEps - a))
/-- The absolute value on the extended reals. -/
def ab (x : EReal) : EReal := max x (-x)

end Cert.Elem

end
-- ==== Proof.LibSumIdx.lean ====
/-
  A sum over every index of a rank-3 or rank-4 shape is the iterated sum over its coordinates, in any commutative
  monoid — in particular on the extended reals, where addition is commutative and associative also at the infinities,
  so no finiteness is needed to regroup a sum. Also: the running sum `(((z + a 0) + a 1) + …) + a n` is `z` plus the sum
  of the `a k`, and zero minus `x` is `-x` on the extended reals.
-/
import Idealize.ShloMosaic.PureOps.Ideal
import Idealize.ShloMosaic.Lib.ValueIdx

noncomputable section

open scoped BigOperators

namespace Cert.LibSumIdx

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Zero minus `x` is the negation of `x` on the extended reals. -/
theorem zero_sub_ereal (x : EReal) : (0 : EReal) - x = -x := by
  rw [sub_eq_add_neg, zero_add]

/-- The running sum from `z`: after step `n` it is `z` plus the first `n + 1` terms. -/
def running {M : Type*} [AddCommMonoid M] (z : M) (a : ℕ → M) : ℕ → M
  | 0 => z + a 0
  | n + 1 => running z a n + a (n + 1)

/-- The running sum after step `n` is `z` plus the sum of the terms `0 … n`. -/
theorem running_eq {M : Type*} [AddCommMonoid M] (z : M) (a : ℕ → M) (n : ℕ) :
    running z a n = z + ∑ k ∈ Finset.range (n + 1), a k := by
  induction n with
  | zero => simp [running]
  | succ n ih => rw [running, ih, Finset.sum_range_succ _ (n + 1), add_assoc]

end Cert.LibSumIdx

end
-- ==== Proof.BodyValue.lean ====
/-
  One grid point's eight sums, as explicit double sums over the point's blocks, on the extended reals.

  Each of the first six entries is a lane sum (over the 14880 positions) followed by a row sum (over the 34 directions) of
  one [1, 34, 14880] array, re-laid as a [1, 1] vector: at its one index it is the double sum of the array's entries. The
  last two entries start from zero and add, channel 0 then channel 1, the double sum of |D_c - target_c| · fg
  (resp. |D_c| · bg), where D_c is channel c of the displacement block and target_c the target's channel c repeated over
  the positions. The eight entries are laid side by side and added to the block the point found.
-/
import proofs.«176454_j5901285064958_1_alg».proof.Proof.Body
import proofs.«176454_j5901285064958_1_alg».proof.Proof.Elem
import proofs.«176454_j5901285064958_1_alg».proof.Proof.LibSumIdx
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.KernelIdeal.BodyValue

open Cert.KernelIdeal Cert.KernelIdeal.Gen Cert.KernelIdeal.Body Cert.Elem

variable {F : FTy → Type} [FloatOps F]

/-! ## The shape of one point's update, at any float instance -/

/-- The sum of every entry of a [1, 34, 14880] array as the body takes it: along the positions, then along the
    directions, the result re-laid as a [1, 1] vector. -/
def red (v : FVec F S1x34x14880 .f32) : FVec F S1x1 .f32 :=
  shapeCast S1x1 (shapeCast S1x1x1 (multiReduction .add [1] S1x1 (shapeCast S1x34x1 (multiReduction .add [2] S1x34 v 0x00000000#32 reduces_S1x34x14880_S1x34 (.inl rfl) rfl) shapeCasts_S1x34_S1x34x1) 0x00000000#32 reduces_S1x34x1_S1x1 (.inl rfl) rfl) shapeCasts_S1x1_S1x1x1) shapeCasts_S1x1x1_S1x1

/-- One channel of the displacement target, repeated over the positions. -/
def tgtRow (x2 : Vec F S1x2x34x1 .f32) (off : Fin 4 → Nat) (h : S1x2x34x1.Slices off S1x1x34x1) : FVec F S1x34x14880 .f32 :=
  broadcastTo S1x34x14880 (shapeCast S1x34x1 (extractStridedSlice S1x1x34x1 off x2 h) shapeCasts_S1x1x34x1_S1x34x1) broadcasts_S1x34x1_S1x34x14880

/-- The eight sums of one point's blocks, side by side. -/
def vec8 (x0 : Vec F S1x34x14880 .f32) (x1 : Vec F S1x2x34x14880 .f32) (x2 : Vec F S1x2x34x1 .f32)
    (x3 x4 x5 : Vec F S1x34x14880 .f32) : FVec F S1x8 .f32 :=
  concatenate S1x8 1
    [⟨S1x1, red (mulf x3 (k0_pay4 x0))⟩, ⟨S1x1, red x3⟩, ⟨S1x1, red (mulf x4 (k0_pay4 x0))⟩, ⟨S1x1, red x4⟩,
     ⟨S1x1, red (mulf x5 (k0_pay5 x0))⟩, ⟨S1x1, red x5⟩,
     ⟨S1x1, addf (addf (broadcast S1x1 (Scalar.ofBits .f32 0x00000000#32))
        (red (mulf (absf (subf (k0_pay14 x1) (tgtRow x2 ![0, 0, 0, 0] slices_S1x2x34x1_o0_0_0_0_S1x1x34x1))) x4)))
        (red (mulf (absf (subf (k0_pay17 x1) (tgtRow x2 ![0, 1, 0, 0] slices_S1x2x34x1_o0_1_0_0_S1x1x34x1))) x4))⟩,
     ⟨S1x1, addf (addf (broadcast S1x1 (Scalar.ofBits .f32 0x00000000#32))
        (red (mulf (absf (k0_pay14 x1)) x3)))
        (red (mulf (absf (k0_pay17 x1)) x3))⟩]
    concatenates_S1x1_S1x1_S1x1_S1x1_S1x1_S1x1_S1x1_S1x1_S1x8_d1

/-- The body's update is the block it found plus the eight sums. -/
theorem step_eq (x0 : Vec F S1x34x14880 .f32) (x1 : Vec F S1x2x34x14880 .f32) (x2 : Vec F S1x2x34x1 .f32)
    (x3 x4 x5 : Vec F S1x34x14880 .f32) (acc : Vec F S1x8 .f32) :
    Body.step x0 x1 x2 x3 x4 x5 acc = addf (shapeCast S1x8 acc shapeCasts_S1x8_S1x8) (vec8 x0 x1 x2 x3 x4 x5) := rfl

/-! ## Read at an index, on the extended reals -/

theorem lift_lane (k : Fin 34) (p : Fin 14880) : reduces_S1x34x14880_S1x34.lift (ix2 (0 : Fin 1) k) p = ix3 (0 : Fin 1) k p := by
  funext a; apply Fin.ext
  match a with
  | ⟨0, _⟩ => rfl
  | ⟨1, _⟩ => rfl
  | ⟨2, _⟩ => rfl

theorem lift_row (k : Fin 34) : reduces_S1x34x1_S1x1.lift (ix2 (0 : Fin 1) (0 : Fin 1)) k = ix3 (0 : Fin 1) k (0 : Fin 1) := by
  funext a; apply Fin.ext
  match a with
  | ⟨0, _⟩ => rfl
  | ⟨1, _⟩ => rfl
  | ⟨2, _⟩ => rfl

/-- The lane sum at direction `k`: the sum over the positions. -/
theorem lane_sum (v : FVec Ideal S1x34x14880 .f32) (k : Fin 34) :
    multiReduction .add [2] S1x34 v 0x00000000#32 reduces_S1x34x14880_S1x34 (.inl rfl) rfl (ix2 (0 : Fin 1) k) = ∑ p : Fin 14880, v (ix3 (0 : Fin 1) k p) := by
  refine (Ideal.multiReduction_add_single v 0x00000000#32 reduces_S1x34x14880_S1x34 (.inl rfl) rfl (ix2 (0 : Fin 1) k)).trans ?_
  exact Finset.sum_congr rfl fun p _ => congrArg v (lift_lane k p)

/-- The row sum: the sum over the directions. -/
theorem row_sum (w : FVec Ideal S1x34x1 .f32) :
    multiReduction .add [1] S1x1 w 0x00000000#32 reduces_S1x34x1_S1x1 (.inl rfl) rfl (ix2 (0 : Fin 1) (0 : Fin 1)) = ∑ k : Fin 34, w (ix3 (0 : Fin 1) k (0 : Fin 1)) := by
  refine (Ideal.multiReduction_add_single w 0x00000000#32 reduces_S1x34x1_S1x1 (.inl rfl) rfl (ix2 (0 : Fin 1) (0 : Fin 1))).trans ?_
  exact Finset.sum_congr rfl fun k _ => congrArg w (lift_row k)

/-- The body's total of a [1, 34, 14880] array is the double sum of its entries. -/
theorem red_apply (v : FVec Ideal S1x34x14880 .f32) :
    red (F := Ideal) v (ix2 (0 : Fin 1) (0 : Fin 1)) = ∑ k : Fin 34, ∑ p : Fin 14880, v (ix3 (0 : Fin 1) k p) := by
  unfold red
  rw [shapeCast_apply _ shapeCasts_S1x1x1_S1x1 (ix2 (0 : Fin 1) (0 : Fin 1)) (ix3 (0 : Fin 1) (0 : Fin 1) (0 : Fin 1)) (by rfl)]
  rw [shapeCast_apply _ shapeCasts_S1x1_S1x1x1 (ix3 (0 : Fin 1) (0 : Fin 1) (0 : Fin 1)) (ix2 (0 : Fin 1) (0 : Fin 1)) (by rfl)]
  rw [row_sum]
  refine Finset.sum_congr rfl fun k _ => ?_
  rw [shapeCast_apply _ shapeCasts_S1x34_S1x34x1 (ix3 (0 : Fin 1) k (0 : Fin 1)) (ix2 (0 : Fin 1) k) (by
    rw [Shape.rowMajor_val_two, Shape.rowMajor_val_three]; simp)]
  exact lane_sum v k

/-- Eight [1, 1] vectors laid side by side, read at slot `n`: the `n`-th vector's one entry. -/
theorem concat8_apply (e0 e1 e2 e3 e4 e5 e6 e7 : FVec Ideal S1x1 .f32)
    (h : Shape.Concatenates (([⟨S1x1, e0⟩, ⟨S1x1, e1⟩, ⟨S1x1, e2⟩, ⟨S1x1, e3⟩, ⟨S1x1, e4⟩, ⟨S1x1, e5⟩, ⟨S1x1, e6⟩, ⟨S1x1, e7⟩] :
      List ((s : Shape) × (s.Idx → Ideal .f32))).map (·.1)) S1x8 1) :
    concatenate S1x8 1 [⟨S1x1, e0⟩, ⟨S1x1, e1⟩, ⟨S1x1, e2⟩, ⟨S1x1, e3⟩, ⟨S1x1, e4⟩, ⟨S1x1, e5⟩, ⟨S1x1, e6⟩, ⟨S1x1, e7⟩] h
      = fun j => (![e0, e1, e2, e3, e4, e5, e6, e7] : Fin 8 → FVec Ideal S1x1 .f32) (j 1) (ix2 (0 : Fin 1) (0 : Fin 1)) := by
  funext j
  obtain ⟨z, n, rfl⟩ : ∃ (z : Fin 1) (n : Fin 8), j = ix2 z n := ⟨j 0, j 1, eq_ix2 j⟩
  have hi : ∀ b : Fin S1x1.rank, b.cast (rfl : S1x1.rank = S1x8.rank) ≠ (1 : Fin S1x8.rank) →
      ((ix2 (0 : Fin 1) (0 : Fin 1) : S1x1.Idx) b).val = ((ix2 z n : S1x8.Idx) (b.cast rfl)).val := by
    intro b hb
    match b with
    | ⟨0, _⟩ => show (0 : ℕ) = z.val; omega
    | ⟨1, _⟩ => exact absurd rfl hb
  fin_cases n
  · exact concatenate_apply_piece (1 : Fin S1x8.rank) _ h _ 0 (by simp) S1x1 e0 rfl rfl 0 (by rfl) (ix2 0 0) hi (by rfl)
  · exact concatenate_apply_piece (1 : Fin S1x8.rank) _ h _ 1 (by simp) S1x1 e1 rfl rfl 1 (by rfl) (ix2 0 0) hi (by rfl)
  · exact concatenate_apply_piece (1 : Fin S1x8.rank) _ h _ 2 (by simp) S1x1 e2 rfl rfl 2 (by rfl) (ix2 0 0) hi (by rfl)
  · exact concatenate_apply_piece (1 : Fin S1x8.rank) _ h _ 3 (by simp) S1x1 e3 rfl rfl 3 (by rfl) (ix2 0 0) hi (by rfl)
  · exact concatenate_apply_piece (1 : Fin S1x8.rank) _ h _ 4 (by simp) S1x1 e4 rfl rfl 4 (by rfl) (ix2 0 0) hi (by rfl)
  · exact concatenate_apply_piece (1 : Fin S1x8.rank) _ h _ 5 (by simp) S1x1 e5 rfl rfl 5 (by rfl) (ix2 0 0) hi (by rfl)
  · exact concatenate_apply_piece (1 : Fin S1x8.rank) _ h _ 6 (by simp) S1x1 e6 rfl rfl 6 (by rfl) (ix2 0 0) hi (by rfl)
  · exact concatenate_apply_piece (1 : Fin S1x8.rank) _ h _ 7 (by simp) S1x1 e7 rfl rfl 7 (by rfl) (ix2 0 0) hi (by rfl)

/-- The positive-pair loss of the affinity block, entry by entry: zero minus the logarithm is the negated logarithm. -/
theorem pay4_apply (x0 : Vec Ideal S1x34x14880 .f32) (i : S1x34x14880.Idx) : k0_pay4 (F := Ideal) x0 i = posL (x0 i) := by
  unfold k0_pay4 k0_pay3
  rw [shapeCast_self]
  show Ideal.ofBits .f32 0x00000000#32 - Ideal.log (x0 i + Ideal.ofBits .f32 0x3727C5AC#32) = _
  rw [Ideal.ofBits_zero_f32, Cert.LibSumIdx.zero_sub_ereal]
  rfl

/-- The negative-pair loss of the affinity block, entry by entry. -/
theorem pay5_apply (x0 : Vec Ideal S1x34x14880 .f32) (i : S1x34x14880.Idx) : k0_pay5 (F := Ideal) x0 i = negL (x0 i) := by
  unfold k0_pay5 k0_pay3
  rw [shapeCast_self]
  show Ideal.ofBits .f32 0x00000000#32 - Ideal.log (Ideal.ofBits .f32 0x3F800054#32 - x0 i) = _
  rw [Ideal.ofBits_zero_f32, Cert.LibSumIdx.zero_sub_ereal]
  rfl

/-- Channel 0 of the displacement block. -/
theorem pay14_apply (x1 : Vec Ideal S1x2x34x14880 .f32) (d : Fin 34) (p : Fin 14880) :
    k0_pay14 (F := Ideal) x1 (ix3 (0 : Fin 1) d p) = x1 (ix4 (0 : Fin 1) (0 : Fin 2) d p) := by
  unfold k0_pay14 k0_pay13
  rw [shapeCast_self]
  rw [shapeCast_apply _ shapeCasts_S1x1x34x14880_S1x34x14880 (ix3 (0 : Fin 1) d p) (ix4 (0 : Fin 1) (0 : Fin 1) d p) (by
    rw [Shape.rowMajor_val_three, Shape.rowMajor_val_four]; simp)]
  exact extractStridedSlice_apply _ x1 _ _ (ix4 (0 : Fin 1) (0 : Fin 2) d p) (fun a => by
    match a with
    | ⟨0, _⟩ => rfl
    | ⟨1, _⟩ => rfl
    | ⟨2, _⟩ => show d.val = 0 + d.val; omega
    | ⟨3, _⟩ => show p.val = 0 + p.val; omega)

/-- Channel 1 of the displacement block. -/
theorem pay17_apply (x1 : Vec Ideal S1x2x34x14880 .f32) (d : Fin 34) (p : Fin 14880) :
    k0_pay17 (F := Ideal) x1 (ix3 (0 : Fin 1) d p) = x1 (ix4 (0 : Fin 1) (1 : Fin 2) d p) := by
  unfold k0_pay17 k0_pay13
  rw [shapeCast_self]
  rw [shapeCast_apply _ shapeCasts_S1x1x34x14880_S1x34x14880 (ix3 (0 : Fin 1) d p) (ix4 (0 : Fin 1) (0 : Fin 1) d p) (by
    rw [Shape.rowMajor_val_three, Shape.rowMajor_val_four]; simp)]
  exact extractStridedSlice_apply _ x1 _ _ (ix4 (0 : Fin 1) (1 : Fin 2) d p) (fun a => by
    match a with
    | ⟨0, _⟩ => rfl
    | ⟨1, _⟩ => rfl
    | ⟨2, _⟩ => show d.val = 0 + d.val; omega
    | ⟨3, _⟩ => show p.val = 0 + p.val; omega)

/-- Channel `ch` of the target, repeated over the positions, read at (d, p): the target at (ch, d). -/
theorem tgtRow_apply (x2 : Vec Ideal S1x2x34x1 .f32) (ch : Fin 2) (h : S1x2x34x1.Slices ![0, ch.val, 0, 0] S1x1x34x1)
    (d : Fin 34) (p : Fin 14880) :
    tgtRow (F := Ideal) x2 ![0, ch.val, 0, 0] h (ix3 (0 : Fin 1) d p) = x2 (ix4 (0 : Fin 1) ch d (0 : Fin 1)) := by
  unfold tgtRow
  rw [broadcastTo_apply _ broadcasts_S1x34x1_S1x34x14880 (ix3 (0 : Fin 1) d p) (ix3 (0 : Fin 1) d (0 : Fin 1)) (fun a => by
    match a with
    | ⟨0, _⟩ => rfl
    | ⟨1, _⟩ => rfl
    | ⟨2, _⟩ => rfl)]
  rw [shapeCast_apply _ shapeCasts_S1x1x34x1_S1x34x1 (ix3 (0 : Fin 1) d (0 : Fin 1)) (ix4 (0 : Fin 1) (0 : Fin 1) d (0 : Fin 1)) (by
    rw [Shape.rowMajor_val_three, Shape.rowMajor_val_four]; simp)]
  exact extractStridedSlice_apply _ x2 h _ (ix4 (0 : Fin 1) ch d (0 : Fin 1)) (fun a => by
    match a with
    | ⟨0, _⟩ => rfl
    | ⟨1, _⟩ => show ch.val = ch.val + 0; omega
    | ⟨2, _⟩ => show d.val = 0 + d.val; omega
    | ⟨3, _⟩ => rfl)

end Cert.KernelIdeal.BodyValue

end
-- ==== Proof.Slots.lean ====
/-
  The eight sums of one grid point, entry by entry, as double sums over the 34 directions and the 14880 positions of
  the point's blocks: x0 the affinity block, x1 the displacement block (two channels), x2 the target (two channels,
  one value per direction), x3, x4, x5 the bg, fg and neg label blocks.
-/
import proofs.«176454_j5901285064958_1_alg».proof.Proof.BodyValue

noncomputable section

open scoped BigOperators
open Idealize.ShloMosaic Idealize.ShloMosaic.ValueIdx

namespace Cert.KernelIdeal.Slots

open Cert.KernelIdeal Cert.KernelIdeal.Gen Cert.KernelIdeal.Body Cert.KernelIdeal.BodyValue Cert.Elem

variable (x0 : Vec Ideal S1x34x14880 .f32) (x1 : Vec Ideal S1x2x34x14880 .f32) (x2 : Vec Ideal S1x2x34x1 .f32)
  (x3 x4 x5 : Vec Ideal S1x34x14880 .f32)

/-- Σ label · (loss of the affinity), over the block. -/
def wsum (lbl : S1x34x14880.Idx → EReal) (g : EReal → EReal) : EReal :=
  ∑ d : Fin 34, ∑ p : Fin 14880, lbl (ix3 (0 : Fin 1) d p) * g (x0 (ix3 (0 : Fin 1) d p))
/-- Σ label, over the block. -/
def lsum (lbl : S1x34x14880.Idx → EReal) : EReal := ∑ d : Fin 34, ∑ p : Fin 14880, lbl (ix3 (0 : Fin 1) d p)
/-- Σ |D_ch - target_ch| · label, over the block, for one channel. -/
def dsumT (ch : Fin 2) (lbl : S1x34x14880.Idx → EReal) : EReal :=
  ∑ d : Fin 34, ∑ p : Fin 14880,
    ab (x1 (ix4 (0 : Fin 1) ch d p) - x2 (ix4 (0 : Fin 1) ch d (0 : Fin 1))) * lbl (ix3 (0 : Fin 1) d p)
/-- Σ |D_ch| · label, over the block, for one channel. -/
def dsumA (ch : Fin 2) (lbl : S1x34x14880.Idx → EReal) : EReal :=
  ∑ d : Fin 34, ∑ p : Fin 14880, ab (x1 (ix4 (0 : Fin 1) ch d p)) * lbl (ix3 (0 : Fin 1) d p)

/-- The eight sums of one point. -/
def slots : Fin 8 → EReal :=
  ![wsum x0 x3 posL, lsum x3, wsum x0 x4 posL, lsum x4, wsum x0 x5 negL, lsum x5,
    (0 + dsumT x1 x2 0 x4) + dsumT x1 x2 1 x4, (0 + dsumA x1 0 x3) + dsumA x1 1 x3]

theorem e0 : red (F := Ideal) (mulf x3 (k0_pay4 x0)) (ix2 (0 : Fin 1) (0 : Fin 1)) = wsum x0 x3 posL := by
  rw [red_apply]
  refine Finset.sum_congr rfl fun d _ => Finset.sum_congr rfl fun p _ => ?_
  show x3 _ * k0_pay4 (F := Ideal) x0 _ = _
  rw [pay4_apply]

theorem e2 : red (F := Ideal) (mulf x4 (k0_pay4 x0)) (ix2 (0 : Fin 1) (0 : Fin 1)) = wsum x0 x4 posL := by
  rw [red_apply]
  refine Finset.sum_congr rfl fun d _ => Finset.sum_congr rfl fun p _ => ?_
  show x4 _ * k0_pay4 (F := Ideal) x0 _ = _
  rw [pay4_apply]

theorem e4 : red (F := Ideal) (mulf x5 (k0_pay5 x0)) (ix2 (0 : Fin 1) (0 : Fin 1)) = wsum x0 x5 negL := by
  rw [red_apply]
  refine Finset.sum_congr rfl fun d _ => Finset.sum_congr rfl fun p _ => ?_
  show x5 _ * k0_pay5 (F := Ideal) x0 _ = _
  rw [pay5_apply]

theorem tgt0 (d : Fin 34) (p : Fin 14880) :
    tgtRow (F := Ideal) x2 ![0, 0, 0, 0] slices_S1x2x34x1_o0_0_0_0_S1x1x34x1 (ix3 (0 : Fin 1) d p) = x2 (ix4 (0 : Fin 1) (0 : Fin 2) d (0 : Fin 1)) :=
  tgtRow_apply x2 (0 : Fin 2) slices_S1x2x34x1_o0_0_0_0_S1x1x34x1 d p

theorem tgt1 (d : Fin 34) (p : Fin 14880) :
    tgtRow (F := Ideal) x2 ![0, 1, 0, 0] slices_S1x2x34x1_o0_1_0_0_S1x1x34x1 (ix3 (0 : Fin 1) d p) = x2 (ix4 (0 : Fin 1) (1 : Fin 2) d (0 : Fin 1)) :=
  tgtRow_apply x2 (1 : Fin 2) slices_S1x2x34x1_o0_1_0_0_S1x1x34x1 d p

theorem eT0 (lbl : Vec Ideal S1x34x14880 .f32) :
    red (F := Ideal) (mulf (absf (subf (k0_pay14 x1) (tgtRow x2 ![0, 0, 0, 0] slices_S1x2x34x1_o0_0_0_0_S1x1x34x1))) lbl) (ix2 (0 : Fin 1) (0 : Fin 1))
      = dsumT x1 x2 0 lbl := by
  rw [red_apply]
  refine Finset.sum_congr rfl fun d _ => Finset.sum_congr rfl fun p _ => ?_
  show ab (k0_pay14 (F := Ideal) x1 (ix3 (0 : Fin 1) d p) - tgtRow (F := Ideal) x2 ![0, 0, 0, 0] _ (ix3 (0 : Fin 1) d p)) * lbl _ = _
  rw [pay14_apply, tgt0]

theorem eT1 (lbl : Vec Ideal S1x34x14880 .f32) :
    red (F := Ideal) (mulf (absf (subf (k0_pay17 x1) (tgtRow x2 ![0, 1, 0, 0] slices_S1x2x34x1_o0_1_0_0_S1x1x34x1))) lbl) (ix2 (0 : Fin 1) (0 : Fin 1))
      = dsumT x1 x2 1 lbl := by
  rw [red_apply]
  refine Finset.sum_congr rfl fun d _ => Finset.sum_congr rfl fun p _ => ?_
  show ab (k0_pay17 (F := Ideal) x1 (ix3 (0 : Fin 1) d p) - tgtRow (F := Ideal) x2 ![0, 1, 0, 0] _ (ix3 (0 : Fin 1) d p)) * lbl _ = _
  rw [pay17_apply, tgt1]

theorem eA0 (lbl : Vec Ideal S1x34x14880 .f32) :
    red (F := Ideal) (mulf (absf (k0_pay14 x1)) lbl) (ix2 (0 : Fin 1) (0 : Fin 1)) = dsumA x1 0 lbl := by
  rw [red_apply]
  refine Finset.sum_congr rfl fun d _ => Finset.sum_congr rfl fun p _ => ?_
  show ab (k0_pay14 (F := Ideal) x1 (ix3 (0 : Fin 1) d p)) * lbl _ = _
  rw [pay14_apply]

theorem eA1 (lbl : Vec Ideal S1x34x14880 .f32) :
    red (F := Ideal) (mulf (absf (k0_pay17 x1)) lbl) (ix2 (0 : Fin 1) (0 : Fin 1)) = dsumA x1 1 lbl := by
  rw [red_apply]
  refine Finset.sum_congr rfl fun d _ => Finset.sum_congr rfl fun p _ => ?_
  show ab (k0_pay17 (F := Ideal) x1 (ix3 (0 : Fin 1) d p)) * lbl _ = _
  rw [pay17_apply]

/-- The eight sums side by side, read at slot `j 1`. -/
theorem vec8_apply (j : S1x8.Idx) : vec8 (F := Ideal) x0 x1 x2 x3 x4 x5 j = slots x0 x1 x2 x3 x4 x5 (j 1) := by
  unfold vec8
  rw [concat8_apply]
  have h6 : (addf (addf (broadcast S1x1 (Scalar.ofBits (F := Ideal) .f32 0x00000000#32))
        (red (mulf (absf (subf (k0_pay14 x1) (tgtRow x2 ![0, 0, 0, 0] slices_S1x2x34x1_o0_0_0_0_S1x1x34x1))) x4)))
        (red (mulf (absf (subf (k0_pay17 x1) (tgtRow x2 ![0, 1, 0, 0] slices_S1x2x34x1_o0_1_0_0_S1x1x34x1))) x4)) : FVec Ideal S1x1 .f32)
        (ix2 (0 : Fin 1) (0 : Fin 1)) = (0 + dsumT x1 x2 0 x4) + dsumT x1 x2 1 x4 := by
    show (Ideal.ofBits .f32 0x00000000#32 + red (F := Ideal) _ (ix2 (0 : Fin 1) (0 : Fin 1))) + red (F := Ideal) _ (ix2 (0 : Fin 1) (0 : Fin 1)) = _
    rw [eT0, eT1, Ideal.ofBits_zero_f32]
  have h7 : (addf (addf (broadcast S1x1 (Scalar.ofBits (F := Ideal) .f32 0x00000000#32))
        (red (mulf (absf (k0_pay14 x1)) x3)))
        (red (mulf (absf (k0_pay17 x1)) x3)) : FVec Ideal S1x1 .f32)
        (ix2 (0 : Fin 1) (0 : Fin 1)) = (0 + dsumA x1 0 x3) + dsumA x1 1 x3 := by
    show (Ideal.ofBits .f32 0x00000000#32 + red (F := Ideal) _ (ix2 (0 : Fin 1) (0 : Fin 1))) + red (F := Ideal) _ (ix2 (0 : Fin 1) (0 : Fin 1)) = _
    rw [eA0, eA1, Ideal.ofBits_zero_f32]
  beta_reduce
  generalize j 1 = n
  fin_cases n
  · exact e0 x0 x3
  · exact red_apply x3
  · exact e2 x0 x4
  · exact red_apply x4
  · exact e4 x0 x5
  · exact red_apply x5
  · exact h6
  · exact h7

/-- One point's update at slot `j 1`: what the block held there plus the point's sum. -/
theorem step_apply (acc : Vec Ideal S1x8 .f32) (j : S1x8.Idx) :
    Body.step (F := Ideal) x0 x1 x2 x3 x4 x5 acc j = acc j + slots x0 x1 x2 x3 x4 x5 (j 1) := by
  rw [step_eq]
  show shapeCast S1x8 acc shapeCasts_S1x8_S1x8 j + vec8 (F := Ideal) x0 x1 x2 x3 x4 x5 j = _
  rw [shapeCast_self, vec8_apply]

end Cert.KernelIdeal.Slots

end
-- ==== Proof.Accum.lean ====
/-
  The output block after each grid point is the running total of the points' sums.

  The output block's index never moves and the block is written back after the last point only, so between write-backs
  each point finds in it what the point before left: after point n the block holds the eight zeros updated by the
  slices of points 0, 1, …, n in turn (`chain`), and the result array ends at the chain's value after the last point.
-/
import proofs.«176454_j5901285064958_1_alg».proof.Proof.Body

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable {F : FTy → Type} [FloatOps F]
variable (m : (ℓ : Loc nD τ sig) → Buf (Elt F) ℓ) (ρ : Dev nD → PrngReg)

/-- Point `t`'s update of the output block: the six windows' blocks at `t` fed to the body's update. -/
def upd (c : Dev nD) (t : Fin cfg0.N) (acc : Vec F S1x8 .f32) : Vec F S1x8 .f32 :=
  Body.step (iblk m c 0 t) (iblk m c 1 t) (iblk m c 2 t) (iblk m c 3 t) (iblk m c 4 t) (iblk m c 5 t) acc

/-- The running contents of the output block after point `n`: the zeros updated by points 0 … n in turn. -/
def chain (c : Dev nD) : (n : ℕ) → n < cfg0.N → Vec F S1x8 .f32
  | 0, h => upd m c ⟨0, h⟩ Body.zero8
  | n + 1, h => upd m c ⟨n + 1, h⟩ (chain c n (Nat.lt_of_succ_lt h))

/-- What the output's staging buffer holds after point `n` is the running contents, by induction on the point. -/
theorem outsAt_eq (c : Dev nD) : ∀ (n : ℕ) (h : n < cfg0.N), outsAt0 m c n h = chain m c n h
  | 0, h => (outsAt0_A m c ⟨0, h⟩ rfl).trans
      (Body.out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩)
        ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩))
  | n + 1, h => by
    have hN : cfg0.N = 16 := N_0
    have hB : ¬(⟨n + 1, h⟩ : Fin cfg0.N).val % 16 = 0 := by dsimp only; omega
    refine (outsAt0_B m c ⟨n + 1, h⟩ hB).trans ?_
    refine (Body.out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩)
        (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)
        (outsAt0 m c n (Nat.lt_of_succ_lt h))).trans ?_
    show upd m c ⟨n + 1, h⟩ (outsAt0 m c n _) = upd m c ⟨n + 1, h⟩ (chain m c n _)
    rw [outsAt_eq c n]

end Cert.KernelIdeal.Accum

end
-- ==== Proof.Blocks.lean ====
/-
  A window's block at grid point t, read at an index, is its array at the batch row t.

  The grid runs over the 16 batch entries. The affinity, the three label arrays and the displacement array are cut
  along the batch axis, one row per point: block t, entry (0, d, p), is the array's entry (t, d, p) (for the displacement
  array (0, ch, d, p) is (t, ch, d, p)). The displacement target is not cut: every point sees the whole [1, 2, 34, 1] array.
-/
import proofs.«176454_j5901285064958_1_alg».proof.Proof.Accum
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The batch row a grid point works on. -/
def bIdx (t : Fin cfg0.N) : Fin 16 := ⟨t.val, lt_of_lt_of_eq t.isLt (show cfg0.N = 16 from N_0)⟩

theorem idx3_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx3_3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem idx3_4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)
theorem idx3_5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)
theorem idx4_1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)
theorem idx4_2 : ∀ t : Fin cfg0.N, win0_2.index t 0 = 0 ∧ win0_2.index t 1 = 0 ∧ win0_2.index t 2 = 0 ∧ win0_2.index t 3 = 0 :=
  (by decide +kernel : ∀ t : Fin grid0.N, win0_2.index t 0 = 0 ∧ win0_2.index t 1 = 0 ∧ win0_2.index t 2 = 0 ∧ win0_2.index t 3 = 0)

/-- The affinity block at point t is row t of the affinity array. -/
theorem blk_aff (c : Dev nD) (t : Fin cfg0.N) (d : Fin 34) (p : Fin 14880) :
    iblk m c 0 t (ix3 (0 : Fin 1) d p) = V m c main_v117 (ix3 (bIdx t) d p) := by
  have hi := idx3_0 t
  unfold iblk
  rw [View.read_apply]
  show V m c main_v117 _ = V m c main_v117 _
  congr 1
  funext a; apply Fin.ext
  match a with
  | ⟨0, _⟩ => show win0_0.index t 0 * 1 + 1 * 0 = t.val; rw [hi.1]; omega
  | ⟨1, _⟩ => show win0_0.index t 1 * 34 + 1 * d.val = d.val; rw [hi.2.1]; omega
  | ⟨2, _⟩ => show win0_0.index t 2 * 14880 + 1 * p.val = p.val; rw [hi.2.2]; omega

/-- The bg block at point t is row t of the bg array. -/
theorem blk_bg (c : Dev nD) (t : Fin cfg0.N) (d : Fin 34) (p : Fin 14880) :
    iblk m c 3 t (ix3 (0 : Fin 1) d p) = V m c main_arg2 (ix3 (bIdx t) d p) := by
  have hi := idx3_3 t
  unfold iblk
  rw [View.read_apply]
  show V m c main_arg2 _ = V m c main_arg2 _
  congr 1
  funext a; apply Fin.ext
  match a with
  | ⟨0, _⟩ => show win0_3.index t 0 * 1 + 1 * 0 = t.val; rw [hi.1]; omega
  | ⟨1, _⟩ => show win0_3.index t 1 * 34 + 1 * d.val = d.val; rw [hi.2.1]; omega
  | ⟨2, _⟩ => show win0_3.index t 2 * 14880 + 1 * p.val = p.val; rw [hi.2.2]; omega

/-- The fg block at point t is row t of the fg array. -/
theorem blk_fg (c : Dev nD) (t : Fin cfg0.N) (d : Fin 34) (p : Fin 14880) :
    iblk m c 4 t (ix3 (0 : Fin 1) d p) = V m c main_arg3 (ix3 (bIdx t) d p) := by
  have hi := idx3_4 t
  unfold iblk
  rw [View.read_apply]
  show V m c main_arg3 _ = V m c main_arg3 _
  congr 1
  funext a; apply Fin.ext
  match a with
  | ⟨0, _⟩ => show win0_4.index t 0 * 1 + 1 * 0 = t.val; rw [hi.1]; omega
  | ⟨1, _⟩ => show win0_4.index t 1 * 34 + 1 * d.val = d.val; rw [hi.2.1]; omega
  | ⟨2, _⟩ => show win0_4.index t 2 * 14880 + 1 * p.val = p.val; rw [hi.2.2]; omega

/-- The neg block at point t is row t of the neg array. -/
theorem blk_ng (c : Dev nD) (t : Fin cfg0.N) (d : Fin 34) (p : Fin 14880) :
    iblk m c 5 t (ix3 (0 : Fin 1) d p) = V m c main_arg4 (ix3 (bIdx t) d p) := by
  have hi := idx3_5 t
  unfold iblk
  rw [View.read_apply]
  show V m c main_arg4 _ = V m c main_arg4 _
  congr 1
  funext a; apply Fin.ext
  match a with
  | ⟨0, _⟩ => show win0_5.index t 0 * 1 + 1 * 0 = t.val; rw [hi.1]; omega
  | ⟨1, _⟩ => show win0_5.index t 1 * 34 + 1 * d.val = d.val; rw [hi.2.1]; omega
  | ⟨2, _⟩ => show win0_5.index t 2 * 14880 + 1 * p.val = p.val; rw [hi.2.2]; omega

/-- The displacement block at point t is row t of the displacement array, both channels. -/
theorem blk_pd (c : Dev nD) (t : Fin cfg0.N) (ch : Fin 2) (d : Fin 34) (p : Fin 14880) :
    iblk m c 1 t (ix4 (0 : Fin 1) ch d p) = V m c main_v135 (ix4 (bIdx t) ch d p) := by
  have hi := idx4_1 t
  unfold iblk
  rw [View.read_apply]
  show V m c main_v135 _ = V m c main_v135 _
  congr 1
  funext a; apply Fin.ext
  match a with
  | ⟨0, _⟩ => show win0_1.index t 0 * 1 + 1 * 0 = t.val; rw [hi.1]; omega
  | ⟨1, _⟩ => show win0_1.index t 1 * 2 + 1 * ch.val = ch.val; rw [hi.2.1]; omega
  | ⟨2, _⟩ => show win0_1.index t 2 * 34 + 1 * d.val = d.val; rw [hi.2.2.1]; omega
  | ⟨3, _⟩ => show win0_1.index t 3 * 14880 + 1 * p.val = p.val; rw [hi.2.2.2]; omega

/-- The target block at every point is the whole target array. -/
theorem blk_tg (c : Dev nD) (t : Fin cfg0.N) (ch : Fin 2) (d : Fin 34) :
    iblk m c 2 t (ix4 (0 : Fin 1) ch d (0 : Fin 1)) = V m c main_arg5 (ix4 (0 : Fin 1) ch d (0 : Fin 1)) := by
  have hi := idx4_2 t
  unfold iblk
  rw [View.read_apply]
  show V m c main_arg5 _ = V m c main_arg5 _
  congr 1
  funext a; apply Fin.ext
  match a with
  | ⟨0, _⟩ => show win0_2.index t 0 * 1 + 1 * 0 = 0; rw [hi.1]
  | ⟨1, _⟩ => show win0_2.index t 1 * 2 + 1 * ch.val = ch.val; rw [hi.2.1]; omega
  | ⟨2, _⟩ => show win0_2.index t 2 * 34 + 1 * d.val = d.val; rw [hi.2.2.1]; omega
  | ⟨3, _⟩ => show win0_2.index t 3 * 1 + 1 * 0 = 0; rw [hi.2.2.2]

end Cert.KernelIdeal.Blocks

end
-- ==== Proof.Final.lean ====
/-
  The result array of the region is the running total after the last grid point.

  The output window's block index is (0, 0) at every point and the block is the whole [1, 8] array; it is written back
  once, after point 15. So the array ends at the chain's value after point 15.
-/
import proofs.«176454_j5901285064958_1_alg».proof.Proof.Accum
import Idealize.ShloMosaic.Lib.Pipeline.Value

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Accum

variable {F : FTy → Type} [FloatOps F]
variable (m : (ℓ : Loc nD τ sig) → Buf (Elt F) ℓ) (ρ : Dev nD → PrngReg)

/-- The running total after the last point, as contents of the region's result array. -/
abbrev result (c : Dev nD) : Buf (Elt F) ((c : Thread nD τ).loc main_v136) :=
  chain m c 15 (by rw [show cfg0.N = 16 from N_0]; decide)

/-- The one write-back, after point 15, writes the running total: block (0, 0) of the [1, 8] array is the array. -/
theorem flushed_eq (c : Dev nD) (t : Fin cfg0.N) (hf : (cfg0.win 6).flush t = true) :
    (dats m 0 c).flushed 6 t = ((cfg0.win 6).blk t).view.read (Elt F) (result m c) := by
  have hN : cfg0.N = 16 := N_0
  have h15 : t.val = 15 := by have := (flush0_6 t).mp hf; have := t.isLt; omega
  obtain rfl : t = t0_15 := Fin.ext h15
  show (cfg0.win 6).cut (grid0.coords t0_15) ((dats m 0 c).after 6 t0_15) = _
  rw [after0_6, outsAt_eq]
  have hz' : (fun a => win0_6.index t0_15 a * main_v136.ty.shape.size a) = fun _ => 0 := funext fun a => by fin_cases a <;> decide
  exact (Memref.read_access_unit_zero (Elt F) main_v136 hz' (fun a => by rw [congrFun hz' a]; simp) (result m c)).symm

/-- So the result array ends holding the running total after point 15. -/
theorem final_o (c : Dev nD) : (dats m 0 c).arrAt 6 cfg0.N = result m c :=
  (dats m 0 c).arrAt_eq_of_cover 6 (result m c) (flushed_eq m c) fun i =>
    ⟨t0_15, (flush0_6 t0_15).mpr rfl, by
      show i ∈ ((View.whole main_v136).slice (win0_6.rect t0_15)).set
      rw [View.set_slice_whole, Rect.mem_set_unit]
      intro a
      have h0 : (i 0 : Nat) < 1 := (i 0).isLt
      have h1 : (i 1 : Nat) < 8 := (i 1).isLt
      match a with
      | ⟨0, _⟩ => show win0_6.index t0_15 0 * win0_6.size 0 ≤ (i 0 : Nat) ∧ (i 0 : Nat) < win0_6.index t0_15 0 * win0_6.size 0 + win0_6.xsize (grid0.coords t0_15) 0
                  rw [show win0_6.index t0_15 0 * win0_6.size 0 = 0 from by decide +kernel, show win0_6.xsize (grid0.coords t0_15) 0 = 1 from by decide +kernel]; omega
      | ⟨1, _⟩ => show win0_6.index t0_15 1 * win0_6.size 1 ≤ (i 1 : Nat) ∧ (i 1 : Nat) < win0_6.index t0_15 1 * win0_6.size 1 + win0_6.xsize (grid0.coords t0_15) 1
                  rw [show win0_6.index t0_15 1 * win0_6.size 1 = 0 from by decide +kernel, show win0_6.xsize (grid0.coords t0_15) 1 = 8 from by decide +kernel]; omega⟩

end Cert.KernelIdeal.Final

end
-- ==== Proof.KValue.lean ====
/-
  The region's result on the extended reals: entry j of the [1, 8] result array is zero plus the sum over the 16 batch
  rows of that row's j-th total.

  Point t adds to the block the eight totals of batch row t (its blocks are the arrays' rows t), the first point onto
  the zeros it stored; so after point n the block holds 0 + Σ_{k ≤ n} (row k's totals), and the array ends at n = 15.
-/
import proofs.«176454_j5901285064958_1_alg».proof.Proof.Slots
import proofs.«176454_j5901285064958_1_alg».proof.Proof.Blocks
import proofs.«176454_j5901285064958_1_alg».proof.Proof.Final

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.KernelIdeal.Accum Cert.KernelIdeal.Blocks Cert.KernelIdeal.Slots
  Cert.KernelIdeal.Final Cert.Elem

/-- Batch row b's eight totals, from the affinity array `A`, the displacement array `D`, the target `T` and the three
    label arrays. -/
def rows (A : S16x34x14880.Idx → EReal) (D : S16x2x34x14880.Idx → EReal) (T : S1x2x34x1.Idx → EReal)
    (BG FG NG : S16x34x14880.Idx → EReal) (b : Fin 16) : Fin 8 → EReal :=
  ![∑ d : Fin 34, ∑ p : Fin 14880, BG (ix3 b d p) * posL (A (ix3 b d p)),
    ∑ d : Fin 34, ∑ p : Fin 14880, BG (ix3 b d p),
    ∑ d : Fin 34, ∑ p : Fin 14880, FG (ix3 b d p) * posL (A (ix3 b d p)),
    ∑ d : Fin 34, ∑ p : Fin 14880, FG (ix3 b d p),
    ∑ d : Fin 34, ∑ p : Fin 14880, NG (ix3 b d p) * negL (A (ix3 b d p)),
    ∑ d : Fin 34, ∑ p : Fin 14880, NG (ix3 b d p),
    (0 + ∑ d : Fin 34, ∑ p : Fin 14880, ab (D (ix4 b (0 : Fin 2) d p) - T (ix4 (0 : Fin 1) (0 : Fin 2) d (0 : Fin 1))) * FG (ix3 b d p))
      + ∑ d : Fin 34, ∑ p : Fin 14880, ab (D (ix4 b (1 : Fin 2) d p) - T (ix4 (0 : Fin 1) (1 : Fin 2) d (0 : Fin 1))) * FG (ix3 b d p),
    (0 + ∑ d : Fin 34, ∑ p : Fin 14880, ab (D (ix4 b (0 : Fin 2) d p)) * BG (ix3 b d p))
      + ∑ d : Fin 34, ∑ p : Fin 14880, ab (D (ix4 b (1 : Fin 2) d p)) * BG (ix3 b d p)]

variable (m : (ℓ : Loc nD τ sig) → Buf (Elt Ideal) ℓ)

/-- Row b's totals of the arrays the region finds. -/
abbrev rowsV (c : Dev nD) (b : Fin 16) : Fin 8 → EReal :=
  rows (V m c main_v117) (V m c main_v135) (V m c main_arg5) (V m c main_arg2) (V m c main_arg3) (V m c main_arg4) b

/-- Point t's eight sums are batch row t's totals. -/
theorem slots_rows (c : Dev nD) (t : Fin cfg0.N) :
    slots (iblk m c 0 t) (iblk m c 1 t) (iblk m c 2 t) (iblk m c 3 t) (iblk m c 4 t) (iblk m c 5 t) = rowsV m c (bIdx t) := by
  unfold slots rowsV rows wsum lsum dsumT dsumA
  simp only [blk_aff, blk_bg, blk_fg, blk_ng, blk_pd, blk_tg]

/-- Point t's update at slot `j 1`. -/
theorem upd_apply (c : Dev nD) (t : Fin cfg0.N) (acc : Vec Ideal S1x8 .f32) (j : S1x8.Idx) :
    upd m c t acc j = acc j + rowsV m c (bIdx t) (j 1) := by
  unfold upd
  refine (step_apply (iblk m c 0 t) (iblk m c 1 t) (iblk m c 2 t) (iblk m c 3 t) (iblk m c 4 t) (iblk m c 5 t) acc j).trans ?_
  rw [slots_rows]

/-- The rows' j-th totals summed over rows 0 … n. -/
def tot (c : Dev nD) (j : Fin 8) (n : ℕ) : EReal :=
  ∑ k ∈ Finset.range (n + 1), if h : k < 16 then rowsV m c ⟨k, h⟩ j else 0

/-- After point n the block holds, at slot `j 1`, zero plus rows 0 … n's totals. -/
theorem chain_apply (c : Dev nD) : ∀ (n : ℕ) (h : n < cfg0.N) (j : S1x8.Idx), chain m c n h j = 0 + tot m c (j 1) n
  | 0, h, j => by
    show upd m c ⟨0, h⟩ (Body.zero8 (F := Ideal)) j = _
    rw [upd_apply]
    have hz : (Body.zero8 : FVec Ideal S1x8 .f32) j = 0 := Ideal.ofBits_zero_f32
    rw [hz]
    unfold tot
    rw [Finset.sum_range_one, dif_pos (by decide : (0 : ℕ) < 16)]
    rfl
  | n + 1, h, j => by
    have hN : cfg0.N = 16 := N_0
    show upd m c ⟨n + 1, h⟩ (chain m c n (Nat.lt_of_succ_lt h)) j = _
    rw [upd_apply, chain_apply c n (Nat.lt_of_succ_lt h) j]
    unfold tot
    rw [Finset.sum_range_succ _ (n + 1), dif_pos (by omega : n + 1 < 16), add_assoc]
    rfl

/-- The region's result at slot `j 1`: zero plus the sum over the 16 batch rows of the row's total. -/
theorem result_apply (c : Dev nD) (j : S1x8.Idx) : result m c j = 0 + ∑ b : Fin 16, rowsV m c b (j 1) := by
  show chain m c 15 _ j = _
  rw [chain_apply]
  unfold tot
  rw [← Fin.sum_univ_eq_sum_range (fun k => if h : k < 16 then rowsV m c ⟨k, h⟩ (j 1) else 0) 16]
  congr 1

end Cert.KernelIdeal.KValue

end
-- ==== Proof.Spec.lean ====
/-
  The mathematics both programs compute, as named terms.

  The loss is one formula of EIGHT scalars: with bg, fg, neg the three label arrays, A the affinity array and D the
  pair-displacement array,
    s0 = Σ bg · (-log (A + ε))      s1 = Σ bg
    s2 = Σ fg · (-log (A + ε))      s3 = Σ fg
    s4 = Σ neg · (-log (1 + ε - A)) s5 = Σ neg
    s6 = Σ |D - target| · fg        s7 = Σ |D| · bg
  and the result is ((s0/(s1+ε)/2 + s2/(s3+ε)/2) + s4/(s5+ε))/2 + (s6/(2·s3+ε) + s7/(2·s1+ε))/2.
  The affinity is A = 1 - M, where M at (b, d, p) is the maximum over the eleven path steps l of the sigmoid of the edge
  map at the pixel the index table names for (d, l, p). The two programs differ in HOW M is taken (one gather of all
  steps then a maximum over the step axis, against eleven gathers of one step each joined by pairwise maxima) and in
  how the sums are grouped; everything else is the same term on both sides.
-/
import proofs.«176454_j5901285064958_1_alg».proof.Proof.Gen.KernelIdeal
import proofs.«176454_j5901285064958_1_alg».proof.Proof.Gen.ReferenceIdeal

noncomputable section

namespace Cert.Spec

open Idealize.ShloMosaic

variable {F : FTy → Type} [FloatOps F]

section Ref
open Cert.ReferenceIdeal Cert.ReferenceIdeal.Facts₀

/-- The sigmoid of the edge map, flattened to one row of 16384 pixels per batch entry: 1 / (1 + exp (-x)). -/
def sigm (e : FVec F S16x1x128x128 .f32) : FVec F S16x16384 .f32 :=
  Host.divf (broadcastInDim S16x16384 ![] bcast_S_S16x16384 (constant S_ .f32 0x3F800000#32))
    (addf (broadcastInDim S16x16384 ![] bcast_S_S16x16384 (constant S_ .f32 0x3F800000#32))
      (Host.exp (Host.negf (shapeCast _ e shapeCasts_S16x1x128x128_S16x16384))))

/-- The path maximum taken in one piece: every step's pixel gathered at once, then the maximum over the step axis,
    starting from minus infinity. A negative table entry counts from the end of the row. -/
def maxAll (s : FVec F S16x16384 .f32) (p : IVec S34x11x14880 32) : FVec F S16x34x14880 .f32 :=
  Host.reduce FloatOps.maximumf
    (Host.gather gather_S16x16384_S34x11x14880x1_S16x34x11x14880_0_1_n_n_1_3_161 s
      (broadcastInDim S34x11x14880x1 ![0, 1, 2] bcast_S34x11x14880_S34x11x14880x1_0_1_2
        (select (cmpi .slt p (broadcastInDim S34x11x14880 ![] bcast_S_S34x11x14880 (constantI S_ 32 0#32)))
          (addi p (broadcastInDim S34x11x14880 ![] bcast_S_S34x11x14880 (constantI S_ 32 16384#32))) p)))
    (constant S_ .f32 0xFF800000#32) reducesTo_S16x34x11x14880_S16x34x14880_d2 h_S_

/-- The affinity: one minus the path maximum. -/
def aff (mx : FVec F S16x34x14880 .f32) : FVec F S16x34x14880 .f32 :=
  subf (broadcastInDim S16x34x14880 ![] bcast_S_S16x34x14880 (constant S_ .f32 0x3F800000#32)) mx

/-- The loss of a positive pair: -log (A + ε). -/
def posLoss (a : FVec F S16x34x14880 .f32) : FVec F S16x34x14880 .f32 :=
  Host.negf (Host.log (addf a (broadcastInDim S16x34x14880 ![] bcast_S_S16x34x14880 (constant S_ .f32 0x3727C5AC#32))))

/-- The loss of a negative pair: -log ((1 + ε) - A). -/
def negLoss (a : FVec F S16x34x14880 .f32) : FVec F S16x34x14880 .f32 :=
  Host.negf (Host.log (subf (broadcastInDim S16x34x14880 ![] bcast_S_S16x34x14880 (constant S_ .f32 0x3F800054#32)) a))

/-- The pair displacement: the displacement map at the source pixel minus the displacement map at each destination
    pixel, per batch entry and channel. -/
def pairDisp (dp : FVec F S16x2x128x128 .f32) (src : IVec S14880 32) (dst : IVec S34x14880 32) : FVec F S16x2x34x14880 .f32 :=
  subf
    (broadcastInDim S16x2x34x14880 ![0, 1, 2, 3] bcast_S16x2x1x14880_S16x2x34x14880_0_1_2_3
      (broadcastInDim S16x2x1x14880 ![0, 1, 3] bcast_S16x2x14880_S16x2x1x14880_0_1_3
        (Host.gather gather_S16x2x16384_S14880x1_S16x2x14880_01_2_n_n_2_1_1621
          (shapeCast _ dp shapeCasts_S16x2x128x128_S16x2x16384)
          (broadcastInDim S14880x1 ![0] bcast_S14880_S14880x1_0
            (select (cmpi .slt src (broadcastInDim S14880 ![] bcast_S_S14880 (constantI S_ 32 0#32)))
              (addi src (broadcastInDim S14880 ![] bcast_S_S14880 (constantI S_ 32 16384#32))) src)))))
    (Host.gather gather_S16x2x16384_S34x14880x1_S16x2x34x14880_01_2_n_n_2_2_1621
      (shapeCast _ dp shapeCasts_S16x2x128x128_S16x2x16384)
      (broadcastInDim S34x14880x1 ![0, 1] bcast_S34x14880_S34x14880x1_0_1
        (select (cmpi .slt dst (broadcastInDim S34x14880 ![] bcast_S_S34x14880 (constantI S_ 32 0#32)))
          (addi dst (broadcastInDim S34x14880 ![] bcast_S_S34x14880 (constantI S_ 32 16384#32))) dst)))

/-- The sum of every entry of a [16, 34, 14880] array, from zero. -/
def sum3 (x : FVec F S16x34x14880 .f32) : FVec F S_ .f32 :=
  Host.reduceAdd x (constant S_ .f32 0x00000000#32) reducesTo_S16x34x14880_S_d0_1_2 h_S_

/-- The sum of every entry of a [16, 2, 34, 14880] array, from zero. -/
def sum4 (x : FVec F S16x2x34x14880 .f32) : FVec F S_ .f32 :=
  Host.reduceAdd x (constant S_ .f32 0x00000000#32) reducesTo_S16x2x34x14880_S_d0_1_2_3 h_S_

/-- A label array repeated over the two displacement channels. -/
def overChannels (l : FVec F S16x34x14880 .f32) : FVec F S16x2x34x14880 .f32 :=
  broadcastInDim S16x2x34x14880 ![0, 1, 2, 3] bcast_S16x1x34x14880_S16x2x34x14880_0_1_2_3
    (broadcastInDim S16x1x34x14880 ![0, 2, 3] bcast_S16x34x14880_S16x1x34x14880_0_2_3 l)

/-- The displacement target repeated over the batch and the positions. -/
def targetAll (t : FVec F S1x2x34x1 .f32) : FVec F S16x2x34x14880 .f32 :=
  broadcastInDim S16x2x34x14880 ![0, 1, 2, 3] bcast_S1x2x34x1_S16x2x34x14880_0_1_2_3 t

/-- The loss as a function of the eight sums. -/
def loss8 (s0 s1 s2 s3 s4 s5 s6 s7 : FVec F S_ .f32) : FVec F S_ .f32 :=
  addf
    (Host.divf
      (addf
        (addf (Host.divf (Host.divf s0 (addf s1 (constant S_ .f32 0x3727C5AC#32))) (constant S_ .f32 0x40000000#32))
          (Host.divf (Host.divf s2 (addf s3 (constant S_ .f32 0x3727C5AC#32))) (constant S_ .f32 0x40000000#32)))
        (Host.divf s4 (addf s5 (constant S_ .f32 0x3727C5AC#32))))
      (constant S_ .f32 0x40000000#32))
    (Host.divf
      (addf (Host.divf s6 (addf (mulf (constant S_ .f32 0x40000000#32) s3) (constant S_ .f32 0x3727C5AC#32)))
        (Host.divf s7 (addf (mulf (constant S_ .f32 0x40000000#32) s1) (constant S_ .f32 0x3727C5AC#32))))
      (constant S_ .f32 0x40000000#32))

/-- The whole loss from the affinity and the pair displacement, every sum taken over the whole array at once. -/
def lossOf (a : FVec F S16x34x14880 .f32) (d : FVec F S16x2x34x14880 .f32) (t : FVec F S1x2x34x1 .f32)
    (bg fg ng : FVec F S16x34x14880 .f32) : FVec F S_ .f32 :=
  loss8 (sum3 (mulf bg (posLoss a))) (sum3 bg) (sum3 (mulf fg (posLoss a))) (sum3 fg)
    (sum3 (mulf ng (negLoss a))) (sum3 ng)
    (sum4 (mulf (Host.absf (subf d (targetAll t))) (overChannels fg)))
    (sum4 (mulf (Host.absf d) (overChannels bg)))

end Ref

section Ker
open Cert.KernelIdeal Cert.KernelIdeal.Facts₀

/-- One path step taken alone: the step's slice of the index table, its negative entries counted from the end of the
    row, and the sigmoid gathered at those pixels. -/
def stepGather (s : FVec F S16x16384 .f32) (p : IVec S34x11x14880 32) (off : Fin 3 → Nat)
    (h : S34x11x14880.Slices off S34x1x14880) : FVec F S16x34x14880 .f32 :=
  Host.gather gather_S16x16384_S34x14880x1_S16x34x14880_0_1_n_n_1_2_161 s
    (broadcastInDim S34x14880x1 ![0, 1] bcast_S34x14880_S34x14880x1_0_1
      (select
        (cmpi .slt (shapeCast _ (extractStridedSlice S34x1x14880 off p h) shapeCasts_S34x1x14880_S34x14880)
          (broadcastInDim S34x14880 ![] bcast_S_S34x14880 (constantI S_ 32 0#32)))
        (addi (shapeCast _ (extractStridedSlice S34x1x14880 off p h) shapeCasts_S34x1x14880_S34x14880)
          (broadcastInDim S34x14880 ![] bcast_S_S34x14880 (constantI S_ 32 16384#32)))
        (shapeCast _ (extractStridedSlice S34x1x14880 off p h) shapeCasts_S34x1x14880_S34x14880)))

/-- The path maximum taken step by step: eleven single-step gathers joined by pairwise maxima, first to last. -/
def maxSteps (s : FVec F S16x16384 .f32) (p : IVec S34x11x14880 32) : FVec F S16x34x14880 .f32 :=
  maximumf (maximumf (maximumf (maximumf (maximumf (maximumf (maximumf (maximumf (maximumf (maximumf
    (stepGather s p ![0, 0, 0] slices_S34x11x14880_S34x1x14880_0_0_0)
    (stepGather s p ![0, 1, 0] slices_S34x11x14880_S34x1x14880_0_1_0))
    (stepGather s p ![0, 2, 0] slices_S34x11x14880_S34x1x14880_0_2_0))
    (stepGather s p ![0, 3, 0] slices_S34x11x14880_S34x1x14880_0_3_0))
    (stepGather s p ![0, 4, 0] slices_S34x11x14880_S34x1x14880_0_4_0))
    (stepGather s p ![0, 5, 0] slices_S34x11x14880_S34x1x14880_0_5_0))
    (stepGather s p ![0, 6, 0] slices_S34x11x14880_S34x1x14880_0_6_0))
    (stepGather s p ![0, 7, 0] slices_S34x11x14880_S34x1x14880_0_7_0))
    (stepGather s p ![0, 8, 0] slices_S34x11x14880_S34x1x14880_0_8_0))
    (stepGather s p ![0, 9, 0] slices_S34x11x14880_S34x1x14880_0_9_0))
    (stepGather s p ![0, 10, 0] slices_S34x11x14880_S34x1x14880_0_10_0)

end Ker

end Cert.Spec

end
-- ==== Proof.KRun.lean ====
/-
  The idealized kernel's run, read: its result is the loss formula of the eight entries of the region's result array.

  After the region the program takes the eight entries of the [1, 8] result array one by one and combines them by the
  loss formula (the same formula the reference applies to its eight sums).
-/
import proofs.«176454_j5901285064958_1_alg».proof.Proof.Final
import proofs.«176454_j5901285064958_1_alg».proof.Proof.Spec
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.KRun

open Cert.KernelIdeal Cert.KernelIdeal.Gen

variable {F : FTy → Type} [FloatOps F]
variable (m : (ℓ : Loc nD τ sig) → Buf (Elt F) ℓ) (ρ : Dev nD → PrngReg)

/-- One entry of the [1, 8] array as a scalar. -/
def slotOf (o : FVec F S1x8 .f32) (off : Fin 2 → Nat) (h : S1x8.Slices off S1x1) : FVec F S_ .f32 :=
  shapeCast _ (extractStridedSlice S1x1 off o h) shapeCasts_S1x1_S_

/-- The loss formula applied to the eight entries of the array. -/
def lossK (o : FVec F S1x8 .f32) : FVec F S_ .f32 :=
  Cert.Spec.loss8 (slotOf o ![0, 0] slices_S1x8_S1x1_0_0) (slotOf o ![0, 1] slices_S1x8_S1x1_0_1)
    (slotOf o ![0, 2] slices_S1x8_S1x1_0_2) (slotOf o ![0, 3] slices_S1x8_S1x1_0_3)
    (slotOf o ![0, 4] slices_S1x8_S1x1_0_4) (slotOf o ![0, 5] slices_S1x8_S1x1_0_5)
    (slotOf o ![0, 6] slices_S1x8_S1x1_0_6) (slotOf o ![0, 7] slices_S1x8_S1x1_0_7)

set_option maxHeartbeats 200000000 in
/-- What the operations after the region leave in the program's result. -/
theorem tail_eq (c : Dev nD) :
    Pipeline.afterTail₀ cfgs (dats m) 0 (V0 m) [hostOps1] c main_v172 = lossK (Final.result m c) := by
  unfold Pipeline.afterTail₀
  show StableHlo.after hostOps1 _ (Proc.devRef .tc main_v172) = _
  after_results_simp
  rw [(Pipeline.withArrays_arr spec0 launch0.win.arr_inj c _ _ 6).trans (Final.final_o m c)]
  rfl

/-- The run, read: the result at the loss formula of the region's result array, the arguments unchanged. -/
theorem run : θ_run defs (onTc (τ := τ) (main (F := F))) ⟨m, fun _ => 0, ρ⟩ fun r => ∀ c : Dev nD,
      r.2.mem ((c.tc : Thread nD τ).loc main_v172) = lossK (Final.result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v172 (Pipeline.mem_restRefs_of main_v172 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 2).trans (((dats m 0 c).arrAt_in 2 rfl _).trans ((A_eq m c 2).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.KRun

end
-- ==== Proof.HostSide.lean ====
/-
  What the region finds in its two computed operands.

  Before the region the program computes, from the arguments, the affinity array — one minus the path maximum of the
  edge sigmoid, the maximum taken step by step — and the pair-displacement array. Read back through the host
  operations, the two arrays are those terms of the arguments.
-/
import proofs.«176454_j5901285064958_1_alg».proof.Proof.Accum
import proofs.«176454_j5901285064958_1_alg».proof.Proof.Spec
import Idealize.ShloMosaic.Lib.Pipeline.Value
import Idealize.ShloMosaic.Lib.StableHlo.Run

noncomputable section

open Idealize.ShloMosaic Idealize.ShloMosaic.TcCoe Idealize.SL.Sem

namespace Cert.KernelIdeal.HostSide

open Cert.KernelIdeal Cert.KernelIdeal.Gen

variable {F : FTy → Type} [FloatOps F]
variable (m : (ℓ : Loc nD τ sig) → Buf (Elt F) ℓ) (ρ : Dev nD → PrngReg)

set_option maxHeartbeats 200000000 in
/-- The affinity array the region finds: one minus the step-by-step path maximum of the edge sigmoid. -/
theorem V_aff (c : Dev nD) : V m c main_v117
    = Cert.Spec.aff (Cert.Spec.maxSteps (Cert.Spec.sigm (m ((c : Thread nD τ).loc main_arg0))) (m ((c : Thread nD τ).loc main_arg6))) := by
  show StableHlo.after hostOps0 (fun b => m (c, b)) (Proc.devRef .tc main_v117) = _
  after_results_simp
  rfl

set_option maxHeartbeats 200000000 in
/-- The pair-displacement array the region finds. -/
theorem V_pd (c : Dev nD) : V m c main_v135
    = Cert.Spec.pairDisp (m ((c : Thread nD τ).loc main_arg1)) (m ((c : Thread nD τ).loc main_arg7)) (m ((c : Thread nD τ).loc main_arg8)) := by
  show StableHlo.after hostOps0 (fun b => m (c, b)) (Proc.devRef .tc main_v135) = _
  after_results_simp
  rfl

end Cert.KernelIdeal.HostSide

end
-- ==== Proof.LibGatherCols.lean ====
/-
  `stablehlo.gather` of COLUMNS of a rank-2 operand, read at an index.

  For an operand `x : [B, N]` and an integer array of start indices, `x[:, idx]` lowers to a gather with offset_dims
  `[0]`, collapsed_slice_dims `[1]`, start_index_map `[1]`, slice_sizes `[B, 1]` and the index vector on the last axis
  (of size one) of the start indices. Each result element `(b, r, …)` is the operand's row `b` at the column the start
  index names, read as a signed integer and clamped into `[0, N − 1]`, as StableHLO clamps every start index. Two
  ranks of start indices are treated: `[R, C, 1]` (result `[B, R, C]`) and `[R, L, C, 1]` (result `[B, R, L, C]`). The
  extents are variables throughout.

  Last, the maximum of finitely many extended reals taken as a fold from the bottom element is the supremum, and a
  left-nested chain of eleven pairwise maxima is the same supremum.
-/
import Idealize.ShloMosaic.Lib.ValueIdx
import Idealize.ShloMosaic.PureOps.Ideal.Laws
import Idealize.ShloMosaic.PureOps.Reduce

noncomputable section

namespace Idealize.ShloMosaic.GatherCols

open Idealize.ShloMosaic Idealize.ShloMosaic.ValueIdx

variable {α : Type}

/-! ## Start indices of rank 3: `[R, C, 1]` -/

/-- The dimension numbers of a column gather of `[B, N]` at start indices `[R, C, 1]` with result `[B, R, C]`: the
    result's axis 0 is the offset axis (a whole column of the operand), the operand's axis 1 is collapsed and is the
    one the start index addresses, and the index vector is the start indices' last axis. Their conditions `wf` are
    decided on a program's literal shapes. -/
abbrev colDims3 (B N R C : Nat)
    (wf : GatherDims.WF ⟨2, ![B, N]⟩ ⟨3, ![R, C, 1]⟩ ⟨3, ![B, R, C]⟩ [0] [1] [] [1] [] 2 ![B, 1]) :
    GatherDims ⟨2, ![B, N]⟩ ⟨3, ![R, C, 1]⟩ ⟨3, ![B, R, C]⟩ where
  offsetDims := [0]
  collapsedSliceDims := [1]
  operandBatchingDims := []
  startIndicesBatchingDims := []
  startIndexMap := [1]
  indexVectorDim := 2
  sliceSizes := ![B, 1]
  wf := wf

/-- THE COLUMN GATHER READ AT `(b, r, c)`: row `b` of the operand at the column `idx[r, c, 0]`, read signed and
    clamped into `[0, N − 1]`. -/
theorem colGather3_apply {B N R C w : Nat} (hN : 0 < N)
    (wf : GatherDims.WF ⟨2, ![B, N]⟩ ⟨3, ![R, C, 1]⟩ ⟨3, ![B, R, C]⟩ [0] [1] [] [1] [] 2 ![B, 1])
    (x : (⟨2, ![B, N]⟩ : Shape).Idx → α) (idx : IVec ⟨3, ![R, C, 1]⟩ w) (b : Fin B) (r : Fin R) (c : Fin C) :
    Host.gather (colDims3 B N R C wf) x idx (ix3 b r c)
      = x (ix2 b ⟨min (idx (ix3 r c (0 : Fin 1))).toInt.toNat (N - 1), by omega⟩) := by
  unfold Host.gather
  congr 1
  funext a
  refine Fin.ext ?_
  show (colDims3 B N R C wf).start (ix3 b r c) idx a + (colDims3 B N R C wf).batchCoord (ix3 b r c) a
      + (colDims3 B N R C wf).offCoord (ix3 b r c) a = _
  rw [GatherDims.batchCoord_eq_zero _ _ _ List.not_mem_nil]
  match a with
  | ⟨0, _⟩ =>
    -- the offset axis: no start index addresses it, and the result's axis 0 gives the row
    have hstart : (colDims3 B N R C wf).start (ix3 b r c) idx (0 : Fin 2) = 0 := by
      unfold GatherDims.start
      rw [dif_neg (show (0 : Fin 2) ∉ (colDims3 B N R C wf).startIndexMap from
        (by decide : (0 : Fin 2) ∉ ([1] : List (Fin 2))))]
    have hoff : (colDims3 B N R C wf).offCoord (ix3 b r c) (0 : Fin 2) = b.val := by
      unfold GatherDims.offCoord
      rw [dif_pos (show (0 : Fin 2) ∈ (colDims3 B N R C wf).sKept from
        (GatherDims.mem_sKept _ _).mpr ⟨(by decide : (0 : Fin 2) ∉ ([1] : List (Fin 2))), List.not_mem_nil⟩)]
      rfl
    show (colDims3 B N R C wf).start (ix3 b r c) idx (0 : Fin 2) + 0
        + (colDims3 B N R C wf).offCoord (ix3 b r c) (0 : Fin 2) = b.val
    rw [hstart, hoff]; omega
  | ⟨1, _⟩ =>
    -- the collapsed axis: the clamped start index, no offset
    have hoff : (colDims3 B N R C wf).offCoord (ix3 b r c) (1 : Fin 2) = 0 :=
      GatherDims.offCoord_eq_zero _ _ _
        (fun h => ((GatherDims.mem_sKept _ _).mp h).1 (List.mem_singleton.mpr rfl))
    show (colDims3 B N R C wf).start (ix3 b r c) idx (1 : Fin 2) + 0
        + (colDims3 B N R C wf).offCoord (ix3 b r c) (1 : Fin 2) = _
    rw [hoff]
    simp only [Nat.add_zero]
    unfold GatherDims.start
    rw [dif_pos (show (1 : Fin 2) ∈ (colDims3 B N R C wf).startIndexMap from List.mem_singleton.mpr rfl)]
    have hsi : (colDims3 B N R C wf).siIdx (ix3 b r c)
        ⟨List.idxOf (1 : Fin 2) (colDims3 B N R C wf).startIndexMap,
          List.idxOf_lt_length_iff.2 (List.mem_singleton.mpr rfl)⟩ = ix3 r c (0 : Fin 1) := by
      funext k; refine Fin.ext ?_
      match k with
      | ⟨0, _⟩ => rfl
      | ⟨1, _⟩ => rfl
      | ⟨2, _⟩ => rfl
    rw [hsi]
    rfl

/-! ## Start indices of rank 4: `[R, L, C, 1]` -/

/-- The dimension numbers of a column gather of `[B, N]` at start indices `[R, L, C, 1]` with result `[B, R, L, C]`:
    as `colDims3`, with one more batch axis and the index vector on axis 3. -/
abbrev colDims4 (B N R L C : Nat)
    (wf : GatherDims.WF ⟨2, ![B, N]⟩ ⟨4, ![R, L, C, 1]⟩ ⟨4, ![B, R, L, C]⟩ [0] [1] [] [1] [] 3 ![B, 1]) :
    GatherDims ⟨2, ![B, N]⟩ ⟨4, ![R, L, C, 1]⟩ ⟨4, ![B, R, L, C]⟩ where
  offsetDims := [0]
  collapsedSliceDims := [1]
  operandBatchingDims := []
  startIndicesBatchingDims := []
  startIndexMap := [1]
  indexVectorDim := 3
  sliceSizes := ![B, 1]
  wf := wf

/-- THE COLUMN GATHER READ AT `(b, r, l, c)`: row `b` of the operand at the column `idx[r, l, c, 0]`, read signed and
    clamped into `[0, N − 1]`. -/
theorem colGather4_apply {B N R L C w : Nat} (hN : 0 < N)
    (wf : GatherDims.WF ⟨2, ![B, N]⟩ ⟨4, ![R, L, C, 1]⟩ ⟨4, ![B, R, L, C]⟩ [0] [1] [] [1] [] 3 ![B, 1])
    (x : (⟨2, ![B, N]⟩ : Shape).Idx → α) (idx : IVec ⟨4, ![R, L, C, 1]⟩ w)
    (b : Fin B) (r : Fin R) (l : Fin L) (c : Fin C) :
    Host.gather (colDims4 B N R L C wf) x idx (ix4 b r l c)
      = x (ix2 b ⟨min (idx (ix4 r l c (0 : Fin 1))).toInt.toNat (N - 1), by omega⟩) := by
  unfold Host.gather
  congr 1
  funext a
  refine Fin.ext ?_
  show (colDims4 B N R L C wf).start (ix4 b r l c) idx a + (colDims4 B N R L C wf).batchCoord (ix4 b r l c) a
      + (colDims4 B N R L C wf).offCoord (ix4 b r l c) a = _
  rw [GatherDims.batchCoord_eq_zero _ _ _ List.not_mem_nil]
  match a with
  | ⟨0, _⟩ =>
    -- the offset axis: no start index addresses it, and the result's axis 0 gives the row
    have hstart : (colDims4 B N R L C wf).start (ix4 b r l c) idx (0 : Fin 2) = 0 := by
      unfold GatherDims.start
      rw [dif_neg (show (0 : Fin 2) ∉ (colDims4 B N R L C wf).startIndexMap from
        (by decide : (0 : Fin 2) ∉ ([1] : List (Fin 2))))]
    have hoff : (colDims4 B N R L C wf).offCoord (ix4 b r l c) (0 : Fin 2) = b.val := by
      unfold GatherDims.offCoord
      rw [dif_pos (show (0 : Fin 2) ∈ (colDims4 B N R L C wf).sKept from
        (GatherDims.mem_sKept _ _).mpr ⟨(by decide : (0 : Fin 2) ∉ ([1] : List (Fin 2))), List.not_mem_nil⟩)]
      rfl
    show (colDims4 B N R L C wf).start (ix4 b r l c) idx (0 : Fin 2) + 0
        + (colDims4 B N R L C wf).offCoord (ix4 b r l c) (0 : Fin 2) = b.val
    rw [hstart, hoff]; omega
  | ⟨1, _⟩ =>
    -- the collapsed axis: the clamped start index, no offset
    have hoff : (colDims4 B N R L C wf).offCoord (ix4 b r l c) (1 : Fin 2) = 0 :=
      GatherDims.offCoord_eq_zero _ _ _
        (fun h => ((GatherDims.mem_sKept _ _).mp h).1 (List.mem_singleton.mpr rfl))
    show (colDims4 B N R L C wf).start (ix4 b r l c) idx (1 : Fin 2) + 0
        + (colDims4 B N R L C wf).offCoord (ix4 b r l c) (1 : Fin 2) = _
    rw [hoff]
    simp only [Nat.add_zero]
    unfold GatherDims.start
    rw [dif_pos (show (1 : Fin 2) ∈ (colDims4 B N R L C wf).startIndexMap from List.mem_singleton.mpr rfl)]
    have hsi : (colDims4 B N R L C wf).siIdx (ix4 b r l c)
        ⟨List.idxOf (1 : Fin 2) (colDims4 B N R L C wf).startIndexMap,
          List.idxOf_lt_length_iff.2 (List.mem_singleton.mpr rfl)⟩ = ix4 r l c (0 : Fin 1) := by
      funext k; refine Fin.ext ?_
      match k with
      | ⟨0, _⟩ => rfl
      | ⟨1, _⟩ => rfl
      | ⟨2, _⟩ => rfl
      | ⟨3, _⟩ => rfl
    rw [hsi]
    rfl

/-! ## A maximum over one axis, from minus infinity -/

/-- A fold of a commutative, associative operation over `Fin (n + 1)` is the fold over the first `n` coordinates joined
    to the last one's value. -/
theorem fold_univ_castSucc (f : α → α → α) [Std.Commutative f] [Std.Associative f] (b : α) {n : Nat}
    (g : Fin (n + 1) → α) :
    (Finset.univ : Finset (Fin (n + 1))).fold f b g
      = f ((Finset.univ : Finset (Fin n)).fold f b fun k => g k.castSucc) (g (Fin.last n)) := by
  rw [Fin.univ_castSuccEmb, Finset.fold_cons, Finset.fold_map]
  exact Std.Commutative.comm _ _

/-- A fold over `Fin 0` is the initial value. -/
theorem fold_univ_fin0 (f : α → α → α) [Std.Commutative f] [Std.Associative f] (b : α) (g : Fin 0 → α) :
    (Finset.univ : Finset (Fin 0)).fold f b g = b := by
  rw [Finset.univ_eq_empty, Finset.fold_empty]

/-- The bit pattern `0xFF800000` is binary32's minus infinity: the bottom extended real. -/
theorem ofBits_negInf : Ideal.ofBits .f32 0xFF800000#32 = (⊥ : EReal) := by
  simp [Ideal.ofBits, Ideal.ieee]

/-- A `[B, R, C]` index with the coordinate `l` put back on the dropped axis 2 of `[B, R, L, C]` is `(b, r, l, c)`. -/
theorem lift4_axis2 {B R L C : Nat}
    (h : (⟨4, ![B, R, L, C]⟩ : Shape).Reduces [2] (⟨3, ![B, R, C]⟩ : Shape)) (b : Fin B) (r : Fin R) (c : Fin C)
    (k : Fin ((⟨4, ![B, R, L, C]⟩ : Shape).size 2)) :
    h.lift (ix3 b r c) k = ix4 b r (⟨k.val, k.isLt⟩ : Fin L) c := by
  funext a; apply Fin.ext
  fin_cases a <;> rfl

/-- THE REDUCE READ AT `(b, r, c)`: a `stablehlo.reduce` with a maximum body over axis 2 of a `[B, R, L, C]` array of
    extended reals, from minus infinity, is the fold of `max` from the bottom element over the `L` coordinates of that
    axis. -/
theorem hostReduceMax4_axis2_apply {B R L C : Nat} {u : Shape} (x : FVec Ideal ⟨4, ![B, R, L, C]⟩ .f32)
    (h' : (⟨4, ![B, R, L, C]⟩ : Shape).ReducesTo [2] (⟨3, ![B, R, C]⟩ : Shape)) (hu : 0 < u.numel)
    (b : Fin B) (r : Fin R) (c : Fin C) :
    Host.reduce FloatOps.maximumf x (constant (F := Ideal) u .f32 0xFF800000#32) h' hu (ix3 b r c)
      = (Finset.univ : Finset (Fin L)).fold max (⊥ : EReal) fun l => x (ix4 b r l c) := by
  have h : (⟨4, ![B, R, L, C]⟩ : Shape).Reduces [2] (⟨3, ![B, R, C]⟩ : Shape) :=
    ⟨h'.1, (by decide : 0 < 3), h'.2⟩
  rw [Host.reduce_eq_fold_single FloatOps.maximumf x _ h' h hu]
  have hf : (x ∘ h.lift (ix3 b r c)) = fun l : Fin L => x (ix4 b r l c) :=
    funext fun k => congrArg x (lift4_axis2 h b r c k)
  rw [hf]
  show (Finset.univ : Finset (Fin L)).fold max (Ideal.ofBits .f32 0xFF800000#32) (fun l => x (ix4 b r l c)) = _
  rw [ofBits_negInf]

end Idealize.ShloMosaic.GatherCols

end
-- ==== Proof.PathMax.lean ====
/-
  The path maximum taken step by step is the path maximum taken in one piece.

  At a result index (b, d, c) both sides are the maximum, over the eleven path steps l, of the row b of the operand at
  one column: the table entry p (d, l, c), a negative one counted from the end of the row of 16384, read as a signed
  integer and clamped into [0, 16383]. On one side that column is reached through the step's slice of the table, a
  reshape and a gather of one step, and the eleven values are joined by pairwise maxima, first to last; on the other
  through one gather of every step and a maximum over the step axis from minus infinity. The maximum from minus
  infinity over eleven values is the chain of pairwise maxima, since max ⊥ x = x.
-/
import proofs.«176454_j5901285064958_1_alg».proof.Proof.Spec
import proofs.«176454_j5901285064958_1_alg».proof.Proof.LibGatherCols
import Idealize.ShloMosaic.Lib.ValueIdx
import Idealize.ShloMosaic.Lib.Pipeline.Value
import Idealize.ShloMosaic.Lib.ValueLayout
import Idealize.ShloMosaic.PureOps.Ideal.Laws

noncomputable section

namespace Cert.PathMax

open Idealize.ShloMosaic Idealize.ShloMosaic.ValueIdx Idealize.ShloMosaic.GatherCols

/-- A table entry with a negative one counted from the end of a row of 16384 entries. -/
def norm (q : BitVec 32) : BitVec 32 :=
  Scalar.select (IntOp.cmpi .slt q 0#32) (IntOp.addi q 16384#32) q

/-- The column a table entry names: the normalised entry read as a signed integer and clamped into [0, 16383]. -/
def col (q : BitVec 32) : Fin 16384 :=
  ⟨min (norm q).toInt.toNat (16384 - 1), by omega⟩

section Ker
open Cert.KernelIdeal Cert.KernelIdeal.Facts₀

/-- One step's slice of the table, reshaped to [34, 14880], read at (d, c): the table at (d, l, c). -/
theorem stepTable_apply (p : IVec S34x11x14880 32) (l : Nat) (hl : l < 11)
    (h : S34x11x14880.Slices ![0, l, 0] S34x1x14880) (d : Fin 34) (c : Fin 14880) :
    shapeCast S34x14880 (extractStridedSlice S34x1x14880 ![0, l, 0] p h) shapeCasts_S34x1x14880_S34x14880 (ix2 d c)
      = p (ix3 d ⟨l, hl⟩ c) := by
  refine (shapeCast_apply _ _ (ix2 d c) (ix3 d (0 : Fin 1) c) ?_).trans ?_
  · rw [Shape.rowMajor_val_three, Shape.rowMajor_val_two]
    show (d.val * 1 + 0) * 14880 + c.val = d.val * 14880 + c.val
    omega
  · exact slice3_axis1_apply l p h d (0 : Fin 1) c ⟨l, hl⟩ rfl

/-- The start indices of one step's gather, read at (d, c, 0): the normalised table entry at (d, l, c). -/
theorem stepIdx_apply (p : IVec S34x11x14880 32) (l : Nat) (hl : l < 11)
    (h : S34x11x14880.Slices ![0, l, 0] S34x1x14880) (d : Fin 34) (c : Fin 14880) :
    broadcastInDim S34x14880x1 ![0, 1] bcast_S34x14880_S34x14880x1_0_1
      (select
        (cmpi .slt (shapeCast _ (extractStridedSlice S34x1x14880 ![0, l, 0] p h) shapeCasts_S34x1x14880_S34x14880)
          (broadcastInDim S34x14880 ![] bcast_S_S34x14880 (constantI S_ 32 0#32)))
        (addi (shapeCast _ (extractStridedSlice S34x1x14880 ![0, l, 0] p h) shapeCasts_S34x1x14880_S34x14880)
          (broadcastInDim S34x14880 ![] bcast_S_S34x14880 (constantI S_ 32 16384#32)))
        (shapeCast _ (extractStridedSlice S34x1x14880 ![0, l, 0] p h) shapeCasts_S34x1x14880_S34x14880))
      (ix3 d c (0 : Fin 1)) = norm (p (ix3 d ⟨l, hl⟩ c)) := by
  refine (broadcastInDim_apply _ _ _ (ix3 d c (0 : Fin 1)) (ix2 d c) ?_).trans ?_
  · intro a
    match a with
    | ⟨0, _⟩ => rfl
    | ⟨1, _⟩ => rfl
  · show Scalar.select
        (IntOp.cmpi .slt (shapeCast S34x14880 (extractStridedSlice S34x1x14880 ![0, l, 0] p h)
          shapeCasts_S34x1x14880_S34x14880 (ix2 d c)) 0#32)
        (IntOp.addi (shapeCast S34x14880 (extractStridedSlice S34x1x14880 ![0, l, 0] p h)
          shapeCasts_S34x1x14880_S34x14880 (ix2 d c)) 16384#32)
        (shapeCast S34x14880 (extractStridedSlice S34x1x14880 ![0, l, 0] p h)
          shapeCasts_S34x1x14880_S34x14880 (ix2 d c)) = _
    rw [stepTable_apply p l hl h d c]
    rfl

/-- ONE STEP'S GATHER READ AT (b, d, c): row b of the operand at the column the table entry (d, l, c) names. -/
theorem stepGather_apply (s : FVec Ideal S16x16384 .f32) (p : IVec S34x11x14880 32) (l : Nat) (hl : l < 11)
    (h : S34x11x14880.Slices ![0, l, 0] S34x1x14880) (b : Fin 16) (d : Fin 34) (c : Fin 14880) :
    Cert.Spec.stepGather (F := Ideal) s p ![0, l, 0] h (ix3 b d c) = s (ix2 b (col (p (ix3 d ⟨l, hl⟩ c)))) := by
  unfold Cert.Spec.stepGather
  have hrec : gather_S16x16384_S34x14880x1_S16x34x14880_0_1_n_n_1_2_161
      = colDims3 16 16384 34 14880 gather_S16x16384_S34x14880x1_S16x34x14880_0_1_n_n_1_2_161_wf := rfl
  rw [hrec, colGather3_apply (by decide)]
  refine congrArg s (congrArg (ix2 b) (Fin.ext ?_))
  show min (_ : BitVec 32).toInt.toNat (16384 - 1) = min (norm (p (ix3 d ⟨l, hl⟩ c))).toInt.toNat (16384 - 1)
  rw [stepIdx_apply p l hl h d c]

end Ker

section Ref
open Cert.ReferenceIdeal Cert.ReferenceIdeal.Facts₀

/-- The start indices of the one gather of every step, read at (d, l, c, 0): the normalised table entry at (d, l, c). -/
theorem allIdx_apply (p : IVec S34x11x14880 32) (d : Fin 34) (l : Fin 11) (c : Fin 14880) :
    broadcastInDim S34x11x14880x1 ![0, 1, 2] bcast_S34x11x14880_S34x11x14880x1_0_1_2
      (select (cmpi .slt p (broadcastInDim S34x11x14880 ![] bcast_S_S34x11x14880 (constantI S_ 32 0#32)))
        (addi p (broadcastInDim S34x11x14880 ![] bcast_S_S34x11x14880 (constantI S_ 32 16384#32))) p)
      (ix4 d l c (0 : Fin 1)) = norm (p (ix3 d l c)) := by
  refine (broadcastInDim_apply _ _ _ (ix4 d l c (0 : Fin 1)) (ix3 d l c) ?_).trans ?_
  · intro a
    match a with
    | ⟨0, _⟩ => rfl
    | ⟨1, _⟩ => rfl
    | ⟨2, _⟩ => rfl
  · rfl

/-- THE GATHER OF EVERY STEP READ AT (b, d, l, c): row b of the operand at the column the table entry (d, l, c) names. -/
theorem allGather_apply (s : FVec Ideal S16x16384 .f32) (p : IVec S34x11x14880 32)
    (b : Fin 16) (d : Fin 34) (l : Fin 11) (c : Fin 14880) :
    Host.gather gather_S16x16384_S34x11x14880x1_S16x34x11x14880_0_1_n_n_1_3_161 s
      (broadcastInDim S34x11x14880x1 ![0, 1, 2] bcast_S34x11x14880_S34x11x14880x1_0_1_2
        (select (cmpi .slt p (broadcastInDim S34x11x14880 ![] bcast_S_S34x11x14880 (constantI S_ 32 0#32)))
          (addi p (broadcastInDim S34x11x14880 ![] bcast_S_S34x11x14880 (constantI S_ 32 16384#32))) p))
      (ix4 b d l c) = s (ix2 b (col (p (ix3 d l c)))) := by
  have hrec : gather_S16x16384_S34x11x14880x1_S16x34x11x14880_0_1_n_n_1_3_161
      = colDims4 16 16384 34 11 14880 gather_S16x16384_S34x11x14880x1_S16x34x11x14880_0_1_n_n_1_3_161_wf := rfl
  rw [hrec, colGather4_apply (by decide)]
  refine congrArg s (congrArg (ix2 b) (Fin.ext ?_))
  show min (_ : BitVec 32).toInt.toNat (16384 - 1) = min (norm (p (ix3 d l c))).toInt.toNat (16384 - 1)
  rw [allIdx_apply p d l c]

/-- THE PATH MAXIMUM IN ONE PIECE READ AT (b, d, c): the fold of max from the bottom element over the eleven steps. -/
theorem maxAll_apply (s : FVec Ideal S16x16384 .f32) (p : IVec S34x11x14880 32)
    (b : Fin 16) (d : Fin 34) (c : Fin 14880) :
    Cert.Spec.maxAll (F := Ideal) s p (ix3 b d c)
      = (Finset.univ : Finset (Fin 11)).fold max (⊥ : EReal) fun l => s (ix2 b (col (p (ix3 d l c)))) := by
  unfold Cert.Spec.maxAll
  rw [hostReduceMax4_axis2_apply]
  exact congrArg (fun f => Finset.fold max (⊥ : EReal) f (Finset.univ : Finset (Fin 11)))
    (funext fun l => allGather_apply s p b d l c)

end Ref

/-- The maximum of eleven extended reals from the bottom element is the chain of pairwise maxima, first to last. -/
theorem fold_max_fin11 (g : Fin 11 → EReal) :
    (Finset.univ : Finset (Fin 11)).fold max (⊥ : EReal) g
      = max (max (max (max (max (max (max (max (max (max (g 0) (g 1)) (g 2)) (g 3)) (g 4)) (g 5)) (g 6)) (g 7)) (g 8))
          (g 9)) (g 10) := by
  rw [fold_univ_castSucc max, fold_univ_castSucc max, fold_univ_castSucc max, fold_univ_castSucc max,
    fold_univ_castSucc max, fold_univ_castSucc max, fold_univ_castSucc max, fold_univ_castSucc max,
    fold_univ_castSucc max, fold_univ_castSucc max, fold_univ_castSucc max, fold_univ_fin0 max, max_bot_left]
  rfl

/-- THE TWO PATH MAXIMA AGREE: eleven single-step gathers joined by pairwise maxima are the one gather of every step
    followed by the maximum over the step axis from minus infinity. -/
theorem maxSteps_eq_maxAll (s : FVec Ideal Cert.KernelIdeal.S16x16384 .f32) (p : IVec Cert.KernelIdeal.S34x11x14880 32) :
    Cert.Spec.maxSteps (F := Ideal) s p = Cert.Spec.maxAll (F := Ideal) s p := by
  funext i
  obtain ⟨b, d, c, rfl⟩ : ∃ (b : Fin 16) (d : Fin 34) (c : Fin 14880), i = ix3 b d c := ⟨i 0, i 1, i 2, eq_ix3 i⟩
  rw [maxAll_apply, fold_max_fin11]
  unfold Cert.Spec.maxSteps
  simp only [maximumf_apply]
  rw [stepGather_apply s p 0 (by decide) _ b d c, stepGather_apply s p 1 (by decide) _ b d c,
    stepGather_apply s p 2 (by decide) _ b d c, stepGather_apply s p 3 (by decide) _ b d c,
    stepGather_apply s p 4 (by decide) _ b d c, stepGather_apply s p 5 (by decide) _ b d c,
    stepGather_apply s p 6 (by decide) _ b d c, stepGather_apply s p 7 (by decide) _ b d c,
    stepGather_apply s p 8 (by decide) _ b d c, stepGather_apply s p 9 (by decide) _ b d c,
    stepGather_apply s p 10 (by decide) _ b d c]
  rfl

end Cert.PathMax

end
-- ==== Proof.RefValue.lean ====
/-
  The eight sums of the loss, as the one-piece program takes them, written out on the extended reals.

  Each is a sum over every entry of a [16, 34, 14880] or a [16, 2, 34, 14880] array from zero, so it is zero plus the
  iterated sum over the coordinates of the summand at (b, d, p) or (b, c, d, p). The summands are read at an index:
  the loss of a positive pair is -log (a + ε) and of a negative pair -log ((1 + ε) - a) at the affinity a there; a
  label array repeated over the two displacement channels reads the label at (b, d, p) whatever the channel c; the
  displacement target repeated over the batch and the positions reads the target at (0, c, d, 0). No sum is evaluated:
  the extents stay symbols under the summation signs.
-/
import proofs.«176454_j5901285064958_1_alg».proof.Proof.Spec
import proofs.«176454_j5901285064958_1_alg».proof.Proof.Elem
import proofs.«176454_j5901285064958_1_alg».proof.Proof.LibSumIdx
import Idealize.ShloMosaic.Lib.ValueIdx
import Idealize.ShloMosaic.Lib.Pipeline.Value
import Idealize.ShloMosaic.PureOps.Ideal.Laws

noncomputable section

open scoped BigOperators

namespace Cert.RefValue

open Idealize.ShloMosaic Idealize.ShloMosaic.ValueIdx Cert.Elem Cert.ReferenceIdeal

/-! ## The two total sums -/

/-- The sum of every entry of a [16, 34, 14880] array from zero is zero plus the triple sum over the coordinates. -/
theorem sum3_apply (x : FVec Ideal S16x34x14880 .f32) :
    (Cert.Spec.sum3 (F := Ideal) x ix0 : EReal)
      = 0 + ∑ b : Fin 16, ∑ d : Fin 34, ∑ p : Fin 14880, x (ix3 b d p) := by
  show Ideal.hostReduceAdd _ x (Ideal.ofBits .f32 0x00000000#32) ix0 = _
  rw [Ideal.hostReduceAdd_total _ (fun b => b.elim0), Ideal.ofBits_zero_f32, Cert.LibSumIdx.sum_idx3]

/-- The sum of every entry of a [16, 2, 34, 14880] array from zero is zero plus the fourfold sum over the coordinates. -/
theorem sum4_apply (x : FVec Ideal S16x2x34x14880 .f32) :
    (Cert.Spec.sum4 (F := Ideal) x ix0 : EReal)
      = 0 + ∑ b : Fin 16, ∑ c : Fin 2, ∑ d : Fin 34, ∑ p : Fin 14880, x (ix4 b c d p) := by
  show Ideal.hostReduceAdd _ x (Ideal.ofBits .f32 0x00000000#32) ix0 = _
  rw [Ideal.hostReduceAdd_total _ (fun b => b.elim0), Ideal.ofBits_zero_f32, Cert.LibSumIdx.sum_idx4]

/-! ## The summands at an index -/

/-- The loss of a positive pair at an index: -log (a + ε) at the affinity there. -/
theorem posLoss_apply (a : FVec Ideal S16x34x14880 .f32) (i : S16x34x14880.Idx) :
    Cert.Spec.posLoss (F := Ideal) a i = posL (a i) := rfl

/-- The loss of a negative pair at an index: -log ((1 + ε) - a) at the affinity there. -/
theorem negLoss_apply (a : FVec Ideal S16x34x14880 .f32) (i : S16x34x14880.Idx) :
    Cert.Spec.negLoss (F := Ideal) a i = negL (a i) := rfl

/-- A label array repeated over the two channels reads, at (b, c, d, p), the label at (b, d, p). -/
theorem overChannels_apply (l : FVec Ideal S16x34x14880 .f32) (b : Fin 16) (c : Fin 2) (d : Fin 34) (p : Fin 14880) :
    Cert.Spec.overChannels (F := Ideal) l (ix4 b c d p) = l (ix3 b d p) := by
  unfold Cert.Spec.overChannels
  refine (broadcastInDim_apply _ _ _ (ix4 b c d p) (ix4 b (0 : Fin 1) d p) ?_).trans ?_
  · intro k
    match k with
    | ⟨0, _⟩ => rfl
    | ⟨1, _⟩ => rfl
    | ⟨2, _⟩ => rfl
    | ⟨3, _⟩ => rfl
  · refine broadcastInDim_apply _ _ _ (ix4 b (0 : Fin 1) d p) (ix3 b d p) ?_
    intro k
    match k with
    | ⟨0, _⟩ => rfl
    | ⟨1, _⟩ => rfl
    | ⟨2, _⟩ => rfl

/-- The displacement target repeated over the batch and the positions reads, at (b, c, d, p), the target at
    (0, c, d, 0). -/
theorem targetAll_apply (T : FVec Ideal S1x2x34x1 .f32) (b : Fin 16) (c : Fin 2) (d : Fin 34) (p : Fin 14880) :
    Cert.Spec.targetAll (F := Ideal) T (ix4 b c d p) = T (ix4 (0 : Fin 1) c d (0 : Fin 1)) := by
  unfold Cert.Spec.targetAll
  refine broadcastInDim_apply _ _ _ (ix4 b c d p) (ix4 (0 : Fin 1) c d (0 : Fin 1)) ?_
  intro k
  match k with
  | ⟨0, _⟩ => rfl
  | ⟨1, _⟩ => rfl
  | ⟨2, _⟩ => rfl
  | ⟨3, _⟩ => rfl

/-! ## The eight sums in final form -/

/-- A label-weighted sum of the positive-pair loss: zero plus the triple sum of label times -log (a + ε). -/
theorem r_w_pos (lbl a : FVec Ideal S16x34x14880 .f32) :
    (Cert.Spec.sum3 (F := Ideal) (mulf lbl (Cert.Spec.posLoss a)) ix0 : EReal)
      = 0 + ∑ b : Fin 16, ∑ d : Fin 34, ∑ p : Fin 14880, lbl (ix3 b d p) * posL (a (ix3 b d p)) := by
  rw [sum3_apply]
  refine congrArg (fun t : EReal => 0 + t) (Finset.sum_congr rfl fun b _ => Finset.sum_congr rfl fun d _ =>
    Finset.sum_congr rfl fun p _ => ?_)
  show lbl (ix3 b d p) * Cert.Spec.posLoss (F := Ideal) a (ix3 b d p) = _
  rw [posLoss_apply]

/-- A label-weighted sum of the negative-pair loss: zero plus the triple sum of label times -log ((1 + ε) - a). -/
theorem r_w_neg (lbl a : FVec Ideal S16x34x14880 .f32) :
    (Cert.Spec.sum3 (F := Ideal) (mulf lbl (Cert.Spec.negLoss a)) ix0 : EReal)
      = 0 + ∑ b : Fin 16, ∑ d : Fin 34, ∑ p : Fin 14880, lbl (ix3 b d p) * negL (a (ix3 b d p)) := by
  rw [sum3_apply]
  refine congrArg (fun t : EReal => 0 + t) (Finset.sum_congr rfl fun b _ => Finset.sum_congr rfl fun d _ =>
    Finset.sum_congr rfl fun p _ => ?_)
  show lbl (ix3 b d p) * Cert.Spec.negLoss (F := Ideal) a (ix3 b d p) = _
  rw [negLoss_apply]

/-- The label-weighted sum of the displacement's distance from its target: zero plus the fourfold sum of
    |D - target| at (b, c, d, p), the target read at (0, c, d, 0), times the label at (b, d, p). -/
theorem r_T (D : FVec Ideal S16x2x34x14880 .f32) (T : FVec Ideal S1x2x34x1 .f32) (lbl : FVec Ideal S16x34x14880 .f32) :
    (Cert.Spec.sum4 (F := Ideal)
        (mulf (Host.absf (subf D (Cert.Spec.targetAll T))) (Cert.Spec.overChannels lbl)) ix0 : EReal)
      = 0 + ∑ b : Fin 16, ∑ c : Fin 2, ∑ d : Fin 34, ∑ p : Fin 14880,
          ab (D (ix4 b c d p) - T (ix4 (0 : Fin 1) c d (0 : Fin 1))) * lbl (ix3 b d p) := by
  rw [sum4_apply]
  refine congrArg (fun t : EReal => 0 + t) (Finset.sum_congr rfl fun b _ => Finset.sum_congr rfl fun c _ =>
    Finset.sum_congr rfl fun d _ => Finset.sum_congr rfl fun p _ => ?_)
  show ab (D (ix4 b c d p) - Cert.Spec.targetAll (F := Ideal) T (ix4 b c d p))
      * Cert.Spec.overChannels (F := Ideal) lbl (ix4 b c d p) = _
  rw [targetAll_apply, overChannels_apply]

/-- The label-weighted sum of the displacement's absolute value: zero plus the fourfold sum of |D| at (b, c, d, p)
    times the label at (b, d, p). -/
theorem r_A (D : FVec Ideal S16x2x34x14880 .f32) (lbl : FVec Ideal S16x34x14880 .f32) :
    (Cert.Spec.sum4 (F := Ideal) (mulf (Host.absf D) (Cert.Spec.overChannels lbl)) ix0 : EReal)
      = 0 + ∑ b : Fin 16, ∑ c : Fin 2, ∑ d : Fin 34, ∑ p : Fin 14880,
          ab (D (ix4 b c d p)) * lbl (ix3 b d p) := by
  rw [sum4_apply]
  refine congrArg (fun t : EReal => 0 + t) (Finset.sum_congr rfl fun b _ => Finset.sum_congr rfl fun c _ =>
    Finset.sum_congr rfl fun d _ => Finset.sum_congr rfl fun p _ => ?_)
  show ab (D (ix4 b c d p)) * Cert.Spec.overChannels (F := Ideal) lbl (ix4 b c d p) = _
  rw [overChannels_apply]

end Cert.RefValue

end
-- ==== Proof.Bridge.lean ====
/-
  The two programs compute one number.

  The idealized kernel's result is the loss formula of the eight entries of the region's result array; entry j is zero
  plus, summed over the 16 batch rows, the row's j-th total (a double sum over directions and positions). The reference's
  result is the same formula of eight sums, each taken over the whole array at once: zero plus the triple (for the two
  displacement sums, fourfold) sum. A sum over all indices is the iterated sum over the coordinates, so the six label
  sums agree term by term; for the displacement sums the reference's sum over the two channels is the kernel's
  channel-0 total (started from zero) plus its channel-1 total. The affinity arrays agree because the maximum over the
  eleven path steps taken pairwise, step by step, is the maximum taken over the step axis at once.
-/
import proofs.«176454_j5901285064958_1_alg».proof.Proof.KValue
import proofs.«176454_j5901285064958_1_alg».proof.Proof.KRun
import proofs.«176454_j5901285064958_1_alg».proof.Proof.HostSide
import proofs.«176454_j5901285064958_1_alg».proof.Proof.PathMax
import proofs.«176454_j5901285064958_1_alg».proof.Proof.RefValue
import proofs.«176454_j5901285064958_1_alg».proof.Proof.Gen.ReferenceIdeal.Run

noncomputable section

open scoped BigOperators
open Idealize.ShloMosaic Idealize.ShloMosaic.TcCoe Idealize.SL.Sem Idealize.ShloMosaic.ValueIdx

namespace Cert.Bridge

open Cert.Elem

section Kernel
open Cert.KernelIdeal Cert.KernelIdeal.Gen Cert.KernelIdeal.KValue

variable (m : (ℓ : Loc nD τ sig) → Buf (Elt Ideal) ℓ)

/-- Entry j of a [1, 8] array taken as a scalar is the array at (0, j). -/
theorem slot_val (o : FVec Ideal S1x8 .f32) (j : Fin 8) (h : S1x8.Slices ![0, j.val] S1x1) :
    KRun.slotOf (F := Ideal) o ![0, j.val] h ix0 = o (ix2 (0 : Fin 1) j) := by
  unfold KRun.slotOf
  rw [shapeCast_apply _ shapeCasts_S1x1_S_ ix0 (ix2 (0 : Fin 1) (0 : Fin 1)) (by
    rw [Shape.rowMajor_val_two]
    show _ = (Shape.rowMajorPi _ ix0).val
    rw [Shape.rowMajorPi_zero]
    simp)]
  exact extractStridedSlice_apply _ o h _ (ix2 (0 : Fin 1) j) (fun a => by
    match a with
    | ⟨0, _⟩ => rfl
    | ⟨1, _⟩ => show j.val = j.val + 0; omega)

/-- Row b's channel sums of |D - target| · label, the two channels: the reference's sum over the channel axis. -/
theorem two_channels (f : Fin 2 → EReal) : (0 + f 0) + f 1 = ∑ c : Fin 2, f c := by
  rw [Fin.sum_univ_two, zero_add]

/-! ### The eight totals over abstract arrays: the row-by-row totals summed over the rows are the whole-array sums -/

section Totals
variable (A : S16x34x14880.Idx → EReal) (D : S16x2x34x14880.Idx → EReal) (T : S1x2x34x1.Idx → EReal)
  (BG FG NG : S16x34x14880.Idx → EReal)

theorem tot0 : (0 : EReal) + ∑ b : Fin 16, rows A D T BG FG NG b 0 = Cert.Spec.sum3 (F := Ideal) (mulf BG (Cert.Spec.posLoss A)) ix0 :=
  (Cert.RefValue.r_w_pos BG A).symm
theorem tot1 : (0 : EReal) + ∑ b : Fin 16, rows A D T BG FG NG b 1 = Cert.Spec.sum3 (F := Ideal) BG ix0 :=
  (Cert.RefValue.sum3_apply BG).symm
theorem tot2 : (0 : EReal) + ∑ b : Fin 16, rows A D T BG FG NG b 2 = Cert.Spec.sum3 (F := Ideal) (mulf FG (Cert.Spec.posLoss A)) ix0 :=
  (Cert.RefValue.r_w_pos FG A).symm
theorem tot3 : (0 : EReal) + ∑ b : Fin 16, rows A D T BG FG NG b 3 = Cert.Spec.sum3 (F := Ideal) FG ix0 :=
  (Cert.RefValue.sum3_apply FG).symm
theorem tot4 : (0 : EReal) + ∑ b : Fin 16, rows A D T BG FG NG b 4 = Cert.Spec.sum3 (F := Ideal) (mulf NG (Cert.Spec.negLoss A)) ix0 :=
  (Cert.RefValue.r_w_neg NG A).symm
theorem tot5 : (0 : EReal) + ∑ b : Fin 16, rows A D T BG FG NG b 5 = Cert.Spec.sum3 (F := Ideal) NG ix0 :=
  (Cert.RefValue.sum3_apply NG).symm
theorem tot6 : (0 : EReal) + ∑ b : Fin 16, rows A D T BG FG NG b 6
    = Cert.Spec.sum4 (F := Ideal) (mulf (Host.absf (subf D (Cert.Spec.targetAll T))) (Cert.Spec.overChannels FG)) ix0 := by
  refine Eq.trans ?_ (Cert.RefValue.r_T D T FG).symm
  refine congrArg (fun s => (0 : EReal) + s) (Finset.sum_congr rfl fun b _ => ?_)
  exact two_channels fun ch => ∑ d : Fin 34, ∑ p : Fin 14880,
    ab (D (ix4 b ch d p) - T (ix4 (0 : Fin 1) ch d (0 : Fin 1))) * FG (ix3 b d p)
theorem tot7 : (0 : EReal) + ∑ b : Fin 16, rows A D T BG FG NG b 7
    = Cert.Spec.sum4 (F := Ideal) (mulf (Host.absf D) (Cert.Spec.overChannels BG)) ix0 := by
  refine Eq.trans ?_ (Cert.RefValue.r_A D BG).symm
  refine congrArg (fun s => (0 : EReal) + s) (Finset.sum_congr rfl fun b _ => ?_)
  exact two_channels fun ch => ∑ d : Fin 34, ∑ p : Fin 14880, ab (D (ix4 b ch d p)) * BG (ix3 b d p)

end Totals

/-! ### The eight entries of the region's result are the whole-array sums of the arrays the region finds -/

theorem s0 (c : Dev nD) : KRun.slotOf (F := Ideal) (Final.result m c) ![0, 0] slices_S1x8_S1x1_0_0
    = Cert.Spec.sum3 (mulf (V m c main_arg2) (Cert.Spec.posLoss (V m c main_v117))) := by
  funext i; obtain rfl := eq_ix0 i
  refine (slot_val _ (0 : Fin 8) slices_S1x8_S1x1_0_0).trans ((result_apply m c _).trans ?_)
  exact tot0 _ _ _ _ _ _
theorem s1 (c : Dev nD) : KRun.slotOf (F := Ideal) (Final.result m c) ![0, 1] slices_S1x8_S1x1_0_1 = Cert.Spec.sum3 (V m c main_arg2) := by
  funext i; obtain rfl := eq_ix0 i
  refine (slot_val _ (1 : Fin 8) slices_S1x8_S1x1_0_1).trans ((result_apply m c _).trans ?_)
  exact tot1 _ _ _ _ _ _
theorem s2 (c : Dev nD) : KRun.slotOf (F := Ideal) (Final.result m c) ![0, 2] slices_S1x8_S1x1_0_2
    = Cert.Spec.sum3 (mulf (V m c main_arg3) (Cert.Spec.posLoss (V m c main_v117))) := by
  funext i; obtain rfl := eq_ix0 i
  refine (slot_val _ (2 : Fin 8) slices_S1x8_S1x1_0_2).trans ((result_apply m c _).trans ?_)
  exact tot2 _ _ _ _ _ _
theorem s3 (c : Dev nD) : KRun.slotOf (F := Ideal) (Final.result m c) ![0, 3] slices_S1x8_S1x1_0_3 = Cert.Spec.sum3 (V m c main_arg3) := by
  funext i; obtain rfl := eq_ix0 i
  refine (slot_val _ (3 : Fin 8) slices_S1x8_S1x1_0_3).trans ((result_apply m c _).trans ?_)
  exact tot3 _ _ _ _ _ _
theorem s4 (c : Dev nD) : KRun.slotOf (F := Ideal) (Final.result m c) ![0, 4] slices_S1x8_S1x1_0_4
    = Cert.Spec.sum3 (mulf (V m c main_arg4) (Cert.Spec.negLoss (V m c main_v117))) := by
  funext i; obtain rfl := eq_ix0 i
  refine (slot_val _ (4 : Fin 8) slices_S1x8_S1x1_0_4).trans ((result_apply m c _).trans ?_)
  exact tot4 _ _ _ _ _ _
theorem s5 (c : Dev nD) : KRun.slotOf (F := Ideal) (Final.result m c) ![0, 5] slices_S1x8_S1x1_0_5 = Cert.Spec.sum3 (V m c main_arg4) := by
  funext i; obtain rfl := eq_ix0 i
  refine (slot_val _ (5 : Fin 8) slices_S1x8_S1x1_0_5).trans ((result_apply m c _).trans ?_)
  exact tot5 _ _ _ _ _ _
theorem s6 (c : Dev nD) : KRun.slotOf (F := Ideal) (Final.result m c) ![0, 6] slices_S1x8_S1x1_0_6
    = Cert.Spec.sum4 (mulf (Host.absf (subf (V m c main_v135) (Cert.Spec.targetAll (V m c main_arg5)))) (Cert.Spec.overChannels (V m c main_arg3))) := by
  funext i; obtain rfl := eq_ix0 i
  refine (slot_val _ (6 : Fin 8) slices_S1x8_S1x1_0_6).trans ((result_apply m c _).trans ?_)
  exact tot6 _ _ _ _ _ _
theorem s7 (c : Dev nD) : KRun.slotOf (F := Ideal) (Final.result m c) ![0, 7] slices_S1x8_S1x1_0_7
    = Cert.Spec.sum4 (mulf (Host.absf (V m c main_v135)) (Cert.Spec.overChannels (V m c main_arg2))) := by
  funext i; obtain rfl := eq_ix0 i
  refine (slot_val _ (7 : Fin 8) slices_S1x8_S1x1_0_7).trans ((result_apply m c _).trans ?_)
  exact tot7 _ _ _ _ _ _

/-- The kernel's result is the loss of the arrays the region finds, every sum taken over the whole array. -/
theorem kernel_loss (c : Dev nD) :
    KRun.lossK (F := Ideal) (Final.result m c)
      = Cert.Spec.lossOf (F := Ideal) (V m c main_v117) (V m c main_v135) (V m c main_arg5) (V m c main_arg2) (V m c main_arg3) (V m c main_arg4) := by
  unfold KRun.lossK Cert.Spec.lossOf
  rw [s0, s1, s2, s3, s4, s5, s6, s7]

/-- The kernel's result as a function of the arguments: the arrays the region finds are the affinity (one minus the
    path maximum, taken over the step axis at once) and the pair displacement of the arguments. -/
theorem kernel_result (c : Dev nD) :
    KRun.lossK (F := Ideal) (Final.result m c)
      = Cert.Spec.lossOf (F := Ideal)
          (Cert.Spec.aff (Cert.Spec.maxAll (Cert.Spec.sigm (m ((c.tc : Thread nD τ).loc main_arg0))) (m ((c.tc : Thread nD τ).loc main_arg6))))
          (Cert.Spec.pairDisp (m ((c.tc : Thread nD τ).loc main_arg1)) (m ((c.tc : Thread nD τ).loc main_arg7)) (m ((c.tc : Thread nD τ).loc main_arg8)))
          (m ((c.tc : Thread nD τ).loc main_arg5)) (m ((c.tc : Thread nD τ).loc main_arg2))
          (m ((c.tc : Thread nD τ).loc main_arg3)) (m ((c.tc : Thread nD τ).loc main_arg4)) := by
  rw [kernel_loss, HostSide.V_aff, HostSide.V_pd, V_main_arg5, V_main_arg2, V_main_arg3, V_main_arg4,
    Cert.PathMax.maxSteps_eq_maxAll]

end Kernel

section Reference
open Cert.ReferenceIdeal Cert.ReferenceIdeal.Gen

/-- The reference's result term is the loss of the affinity and the pair displacement of its arguments. -/
theorem reference_result (m : (ℓ : Loc nD τ sig) → Buf (Elt Ideal) ℓ) (c : Dev nD) :
    Cert.ReferenceIdeal.Value.res_main_v85 (F := Ideal) m c
      = Cert.Spec.lossOf (F := Ideal)
          (Cert.Spec.aff (Cert.Spec.maxAll (Cert.Spec.sigm (m ((c.tc : Thread nD τ).loc main_arg0))) (m ((c.tc : Thread nD τ).loc main_arg6))))
          (Cert.Spec.pairDisp (m ((c.tc : Thread nD τ).loc main_arg1)) (m ((c.tc : Thread nD τ).loc main_arg7)) (m ((c.tc : Thread nD τ).loc main_arg8)))
          (m ((c.tc : Thread nD τ).loc main_arg5)) (m ((c.tc : Thread nD τ).loc main_arg2))
          (m ((c.tc : Thread nD τ).loc main_arg3)) (m ((c.tc : Thread nD τ).loc main_arg4)) := by
  unfold Cert.ReferenceIdeal.Value.res_main_v85 Cert.Spec.lossOf Cert.Spec.loss8 Cert.Spec.sum3 Cert.Spec.sum4 Cert.Spec.posLoss
    Cert.Spec.negLoss Cert.Spec.aff Cert.Spec.maxAll Cert.Spec.sigm Cert.Spec.pairDisp Cert.Spec.overChannels Cert.Spec.targetAll
  rfl

end Reference

end Cert.Bridge

end
-- ==== Proof.lean ====
/-
  The certificate's five claims.

  Both programs compute the affinity-displacement loss: a formula of eight sums over the batch, the path directions and
  the positions. The kernel takes the eight sums batch row by batch row over a grid of 16 points, accumulating them in
  one [1, 8] block (lane sums, then row sums, the two displacement channels one after the other), and takes the path
  maximum of the edge sigmoid by eleven pairwise maxima; the reference sums each array at once and takes the maximum
  over the step axis at once. On the extended reals addition and maximum are commutative and associative, so the
  groupings agree, and zero minus a logarithm is its negation; every float word and every other operation is the same
  on both sides. No finiteness of the inputs is used.

  The three frames: the two kernels' are the generated frame certificates, the reference's is its generated run with the
  result dropped. The ideal pass rewrote nothing, so the idealization claim is trivial. The algebraic claim pairs the
  kernel's run read through its frame (Proof/KRun.lean) with the reference's generated run; their results are one term
  (Proof/Bridge.lean).
-/
import proofs.«176454_j5901285064958_1_alg».proof.Defs
import proofs.«176454_j5901285064958_1_alg».proof.Proof.Gen.Kernel
import proofs.«176454_j5901285064958_1_alg».proof.Proof.Gen.Kernel.Skeleton
import proofs.«176454_j5901285064958_1_alg».proof.Proof.Gen.Kernel.Launch
import proofs.«176454_j5901285064958_1_alg».proof.Proof.Gen.Kernel.Points
import proofs.«176454_j5901285064958_1_alg».proof.Proof.Gen.Kernel.Frame
import proofs.«176454_j5901285064958_1_alg».proof.Proof.Gen.KernelIdeal
import proofs.«176454_j5901285064958_1_alg».proof.Proof.Gen.KernelIdeal.Skeleton
import proofs.«176454_j5901285064958_1_alg».proof.Proof.Gen.KernelIdeal.Launch
import proofs.«176454_j5901285064958_1_alg».proof.Proof.Gen.KernelIdeal.Points
import proofs.«176454_j5901285064958_1_alg».proof.Proof.Gen.KernelIdeal.Frame
import proofs.«176454_j5901285064958_1_alg».proof.Proof.Gen.ReferenceIdeal
import proofs.«176454_j5901285064958_1_alg».proof.Proof.Gen.Pre_finite_inputs
import proofs.«176454_j5901285064958_1_alg».proof.Proof.Gen.ReferenceIdeal.Run
import proofs.«176454_j5901285064958_1_alg».proof.Proof.Gen.ReferenceIdeal.Read
import proofs.«176454_j5901285064958_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel's result — the loss formula of the accumulated block — and the reference's are one
    term of arguments that agree. -/
theorem algebraic : Cert.algebraic_KernelIdeal_ReferenceIdeal := by
  intro m ρ m' ρ' _ hagree
  refine ⟨fun c => Cert.KernelIdeal.KRun.lossK (F := Ideal) (Cert.KernelIdeal.Final.result m c),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  refine ((Cert.Bridge.reference_result m' c).trans ?_).trans (Cert.Bridge.kernel_result m c).symm
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
